-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v48_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4194304 : Shape := ⟨2, ![2, 4194304]⟩
abbrev S2x2 : Shape := ⟨2, ![2, 2]⟩
abbrev S4x4194304 : Shape := ⟨2, ![4, 4194304]⟩
abbrev S4x4 : Shape := ⟨2, ![4, 4]⟩
abbrev S2x4 : Shape := ⟨2, ![2, 4]⟩
abbrev S_ : Shape := ⟨0, ![]⟩
abbrev S4x2 : Shape := ⟨2, ![4, 2]⟩
abbrev S1x1 : Shape := ⟨2, ![1, 1]⟩

class Facts : Prop where
  bcast_S_S2x4194304 : S_.BroadcastsInDim S2x4194304 (![] : Fin 0 → Fin S2x4194304.rank)
  reducesTo_S2x4194304_S_d0_1 : S2x4194304.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S4x4194304 : S_.BroadcastsInDim S4x4194304 (![] : Fin 0 → Fin S4x4194304.rank)
  reducesTo_S4x4194304_S_d0_1 : S4x4194304.ReducesTo [0, 1] S_
  bcast_S_S4x4 : S_.BroadcastsInDim S4x4 (![] : Fin 0 → Fin S4x4.rank)
  reducesTo_S4x4_S_d0_1 : S4x4.ReducesTo [0, 1] S_
  bcast_S_S2x4 : S_.BroadcastsInDim S2x4 (![] : Fin 0 → Fin S2x4.rank)
  reducesTo_S2x4_S_d0_1 : S2x4.ReducesTo [0, 1] S_
  transposes_S4x4_S4x4_1_0 : S4x4.Transposes [1, 0] S4x4
  transposes_S2x4_S4x2_1_0 : S2x4.Transposes [1, 0] S4x2
  slices_S2x2_S1x1_0_0 : S2x2.Slices ![0, 0] S1x1
  shapeCasts_S1x1_S_ : S1x1.ShapeCasts S_
  slices_S2x2_S1x1_1_1 : S2x2.Slices ![1, 1] S1x1
  slices_S2x2_S1x1_0_1 : S2x2.Slices ![0, 1] S1x1
  slices_S2x2_S1x1_1_0 : S2x2.Slices ![1, 0] S1x1
  dot_S4x4_S4x4_S4x4_1_0_0_1_n_n_wf : DotDims.WF S4x4 S4x4 S4x4 [1] [0] [0] [1] [] []
  dot_S2x4_S4x4_S2x4_1_0_0_1_n_n_wf : DotDims.WF S2x4 S4x4 S2x4 [1] [0] [0] [1] [] []
  dot_S2x4_S4x2_S2x2_1_0_0_1_n_n_wf : DotDims.WF S2x4 S4x2 S2x2 [1] [0] [0] [1] [] []

variable [Facts]

def dot_S4x4_S4x4_S4x4_1_0_0_1_n_n : DotDims S4x4 S4x4 S4x4 where
  lhsContracting := [1]
  rhsContracting := [0]
  lhsNonContracting := [0]
  rhsNonContracting := [1]
  lhsBatch := []
  rhsBatch := []
  wf := dot_S4x4_S4x4_S4x4_1_0_0_1_n_n_wf
def dot_S2x4_S4x4_S2x4_1_0_0_1_n_n : DotDims S2x4 S4x4 S2x4 where
  lhsContracting := [1]
  rhsContracting := [0]
  lhsNonContracting := [0]
  rhsNonContracting := [1]
  lhsBatch := []
  rhsBatch := []
  wf := dot_S2x4_S4x4_S2x4_1_0_0_1_n_n_wf
def dot_S2x4_S4x2_S2x2_1_0_0_1_n_n : DotDims S2x4 S4x2 S2x2 where
  lhsContracting := [1]
  rhsContracting := [0]
  lhsNonContracting := [0]
  rhsNonContracting := [1]
  lhsBatch := []
  rhsBatch := []
  wf := dot_S2x4_S4x2_S2x2_1_0_0_1_n_n_wf
def fn_part2 {F : FTy → Type} [FloatOps F] (main_v28 : IVec S_ 1) (main_v35 : FVec F S2x2 .f32) : IVec S_ 1 :=
  let main_v36 : FVec F S1x1 .f32 := (extractStridedSlice S1x1 ![0, 0] · slices_S2x2_S1x1_0_0) main_v35
  let main_v37 : FVec F S_ .f32 := shapeCast S_ main_v36 shapeCasts_S1x1_S_
  let main_v38 : FVec F S1x1 .f32 := (extractStridedSlice S1x1 ![1, 1] · slices_S2x2_S1x1_1_1) main_v35
  let main_v39 : FVec F S_ .f32 := shapeCast S_ main_v38 shapeCasts_S1x1_S_
  let main_v40 : FVec F S_ .f32 := mulf main_v37 main_v39
  let main_v41 : FVec F S1x1 .f32 := (extractStridedSlice S1x1 ![0, 1] · slices_S2x2_S1x1_0_1) main_v35
  let main_v42 : FVec F S_ .f32 := shapeCast S_ main_v41 shapeCasts_S1x1_S_
  let main_v43 : FVec F S1x1 .f32 := (extractStridedSlice S1x1 ![1, 0] · slices_S2x2_S1x1_1_0) main_v35
  let main_v44 : FVec F S_ .f32 := shapeCast S_ main_v43 shapeCasts_S1x1_S_
  let main_v45 : FVec F S_ .f32 := mulf main_v42 main_v44
  let main_v46 : FVec F S_ .f32 := subf main_v40 main_v45
  let main_cst_10 : FVec F S_ .f32 := constant S_ .f32 0x00000000#32
  let main_v47 : IVec S_ 1 := cmpf .une main_v46 main_cst_10
  let main_v48 : IVec S_ 1 := andi main_v28 main_v47
  main_v48

def fn_part1 {F : FTy → Type} [FloatOps F] (main_arg1 : FVec F S2x2 .f32) (main_arg3 : FVec F S4x4 .f32) (main_arg4 : FVec F S4x4 .f32) (main_arg5 : FVec F S2x4 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4x4 .f32 := Host.absf main_arg4
  let main_cst_6 : FVec F S_ .f32 := constant S_ .f32 0x7F800000#32
  let main_v20 : FVec F S4x4 .f32 := broadcastInDim S4x4 ![] bcast_S_S4x4 main_cst_6
  let main_v21 : IVec S4x4 1 := cmpf .olt main_v19 main_v20
  let main_c_7 : IVec S_ 1 := constantI S_ 1 1#1
  let main_v22 : IVec S_ 1 := (fun x v => Host.reduce IntOp.andi x v reducesTo_S4x4_S_d0_1 h_S_) main_v21 main_c_7
  let main_v23 : IVec S_ 1 := andi main_v18 main_v22
  let main_v24 : FVec F S2x4 .f32 := Host.absf main_arg5
  let main_cst_8 : FVec F S_ .f32 := constant S_ .f32 0x7F800000#32
  let main_v25 : FVec F S2x4 .f32 := broadcastInDim S2x4 ![] bcast_S_S2x4 main_cst_8
  let main_v26 : IVec S2x4 1 := cmpf .olt main_v24 main_v25
  let main_c_9 : IVec S_ 1 := constantI S_ 1 1#1
  let main_v27 : IVec S_ 1 := (fun x v => Host.reduce IntOp.andi x v reducesTo_S2x4_S_d0_1 h_S_) main_v26 main_c_9
  let main_v28 : IVec S_ 1 := andi main_v23 main_v27
  let main_v29 : FVec F S4x4 .f32 := (fun l r => Host.dotGeneral dot_S4x4_S4x4_S4x4_1_0_0_1_n_n none l r) main_arg4 main_arg3
  let main_v30 : FVec F S4x4 .f32 := (transpose S4x4 [1, 0] · transposes_S4x4_S4x4_1_0) main_arg4
  let main_v31 : FVec F S4x4 .f32 := (fun l r => Host.dotGeneral dot_S4x4_S4x4_S4x4_1_0_0_1_n_n none l r) main_v29 main_v30
  let main_v32 : FVec F S2x4 .f32 := (fun l r => Host.dotGeneral dot_S2x4_S4x4_S2x4_1_0_0_1_n_n none l r) main_arg5 main_v31
  let main_v33 : FVec F S4x2 .f32 := (transpose S4x2 [1, 0] · transposes_S2x4_S4x2_1_0) main_arg5
  let main_v34 : FVec F S2x2 .f32 := (fun l r => Host.dotGeneral dot_S2x4_S4x2_S2x2_1_0_0_1_n_n none l r) main_v32 main_v33
  let main_v35 : FVec F S2x2 .f32 := addf main_v34 main_arg1
  fn_part2 (F := F) main_v28 main_v35

def fn {F : FTy → Type} [FloatOps F] (main_arg0 : FVec F S2x4194304 .f32) (main_arg1 : FVec F S2x2 .f32) (main_arg2 : FVec F S4x4194304 .f32) (main_arg3 : FVec F S4x4 .f32) (main_arg4 : FVec F S4x4 .f32) (main_arg5 : FVec F S2x4 .f32) : IVec S_ 1 :=
  let main_v0 : FVec F S2x4194304 .f32 := Host.absf main_arg0
  let main_cst : FVec F S_ .f32 := constant S_ .f32 0x7F800000#32
  let main_v1 : FVec F S2x4194304 .f32 := broadcastInDim S2x4194304 ![] bcast_S_S2x4194304 main_cst
  let main_v2 : IVec S2x4194304 1 := cmpf .olt main_v0 main_v1
  let main_c : IVec S_ 1 := constantI S_ 1 1#1
  let main_v3 : IVec S_ 1 := (fun x v => Host.reduce IntOp.andi x v reducesTo_S2x4194304_S_d0_1 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S4x4194304 .f32 := Host.absf main_arg2
  let main_cst_2 : FVec F S_ .f32 := constant S_ .f32 0x7F800000#32
  let main_v10 : FVec F S4x4194304 .f32 := broadcastInDim S4x4194304 ![] bcast_S_S4x4194304 main_cst_2
  let main_v11 : IVec S4x4194304 1 := cmpf .olt main_v9 main_v10
  let main_c_3 : IVec S_ 1 := constantI S_ 1 1#1
  let main_v12 : IVec S_ 1 := (fun x v => Host.reduce IntOp.andi x v reducesTo_S4x4194304_S_d0_1 h_S_) main_v11 main_c_3
  let main_v13 : IVec S_ 1 := andi main_v8 main_v12
  let main_v14 : FVec F S4x4 .f32 := Host.absf main_arg3
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg1 main_arg3 main_arg4 main_arg5 main_v13 main_v16
-- ==== Kernel.lean ====
abbrev S2x4194304 : Shape := ⟨2, ![2, 4194304]⟩
abbrev S2x2 : Shape := ⟨2, ![2, 2]⟩
abbrev S4x4194304 : Shape := ⟨2, ![4, 4194304]⟩
abbrev S4x4 : Shape := ⟨2, ![4, 4]⟩
abbrev S2x4 : Shape := ⟨2, ![2, 4]⟩
abbrev S4x2 : Shape := ⟨2, ![4, 2]⟩
abbrev S1x1 : Shape := ⟨2, ![1, 1]⟩
abbrev S_ : Shape := ⟨0, ![]⟩
abbrev S1 : Shape := ⟨1, ![1]⟩
abbrev S2 : Shape := ⟨1, ![2]⟩
abbrev S1x2 : Shape := ⟨2, ![1, 2]⟩
abbrev S2x131072 : Shape := ⟨2, ![2, 131072]⟩
abbrev S4x131072 : Shape := ⟨2, ![4, 131072]⟩
abbrev S4x32768 : Shape := ⟨2, ![4, 32768]⟩
abbrev S2x32768 : Shape := ⟨2, ![2, 32768]⟩

abbrev nBuf : Space → Nat
  | .hbm => 57
  | .vmem => 12
  | .smem => 0
  | _ => 0

abbrev bufTy : (tb : Table) → Fin (tcTables nBuf tb) → BufTy
  | .hbm, ⟨0, _⟩ => ⟨S2x4194304, .f32⟩
  | .hbm, ⟨1, _⟩ => ⟨S2x2, .f32⟩
  | .hbm, ⟨2, _⟩ => ⟨S4x4194304, .f32⟩
  | .hbm, ⟨3, _⟩ => ⟨S4x4, .f32⟩
  | .hbm, ⟨4, _⟩ => ⟨S4x4, .f32⟩
  | .hbm, ⟨5, _⟩ => ⟨S2x4, .f32⟩
  | .hbm, ⟨6, _⟩ => ⟨S4x4, .f32⟩
  | .hbm, ⟨7, _⟩ => ⟨S4x4, .f32⟩
  | .hbm, ⟨8, _⟩ => ⟨S4x4, .f32⟩
  | .hbm, ⟨9, _⟩ => ⟨S2x4, .f32⟩
  | .hbm, ⟨10, _⟩ => ⟨S4x2, .f32⟩
  | .hbm, ⟨11, _⟩ => ⟨S2x2, .f32⟩
  | .hbm, ⟨12, _⟩ => ⟨S2x2, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S2, .f32⟩
  | .hbm, ⟨29, _⟩ => ⟨S1x2, .f32⟩
  | .hbm, ⟨30, _⟩ => ⟨S1, .f32⟩
  | .hbm, ⟨31, _⟩ => ⟨S1, .f32⟩
  | .hbm, ⟨32, _⟩ => ⟨S2, .f32⟩
  | .hbm, ⟨33, _⟩ => ⟨S1x2, .f32⟩
  | .hbm, ⟨34, _⟩ => ⟨S2x2, .f32⟩
  | .hbm, ⟨35, _⟩ => ⟨S2x2, .f32⟩
  | .hbm, ⟨36, _⟩ => ⟨S2x2, .f32⟩
  | .hbm, ⟨37, _⟩ => ⟨S4x2, .f32⟩
  | .hbm, ⟨38, _⟩ => ⟨S4x2, .f32⟩
  | .hbm, ⟨39, _⟩ => ⟨S4x2, .f32⟩
  | .hbm, ⟨40, _⟩ => ⟨S2x4, .f32⟩
  | .hbm, ⟨41, _⟩ => ⟨S4x4, .f32⟩
  | .hbm, ⟨42, _⟩ => ⟨S4x4, .f32⟩
  | .hbm, ⟨43, _⟩ => ⟨S4x4, .i32⟩
  | .hbm, ⟨44, _⟩ => ⟨S4x4, .i32⟩
  | .hbm, ⟨45, _⟩ => ⟨S_, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S4x4, .f32⟩
  | .hbm, ⟨50, _⟩ => ⟨S4x4, .f32⟩
  | .hbm, ⟨51, _⟩ => ⟨S4x4, .f32⟩
  | .hbm, ⟨52, _⟩ => ⟨S4x4, .f32⟩
  | .hbm, ⟨53, _⟩ => ⟨S2x4, .f32⟩
  | .hbm, ⟨54, _⟩ => ⟨S2x2, .f32⟩
  | .hbm, ⟨55, _⟩ => ⟨S4x4194304, .f32⟩
  | .hbm, ⟨56, _⟩ => ⟨S2x4194304, .f32⟩
  | .local _ .vmem, ⟨0, _⟩ => ⟨S4x4, .f32⟩
  | .local _ .vmem, ⟨1, _⟩ => ⟨S4x2, .f32⟩
  | .local _ .vmem, ⟨2, _⟩ => ⟨S2x4, .f32⟩
  | .local _ .vmem, ⟨3, _⟩ => ⟨S2x2, .f32⟩
  | .local _ .vmem, ⟨4, _⟩ => ⟨S2x131072, .f32⟩
  | .local _ .vmem, ⟨5, _⟩ => ⟨S2x131072, .f32⟩
  | .local _ .vmem, ⟨6, _⟩ => ⟨S4x131072, .f32⟩
  | .local _ .vmem, ⟨7, _⟩ => ⟨S4x131072, .f32⟩
  | .local _ .vmem, ⟨8, _⟩ => ⟨S4x131072, .f32⟩
  | .local _ .vmem, ⟨9, _⟩ => ⟨S4x131072, .f32⟩
  | .local _ .vmem, ⟨10, _⟩ => ⟨S2x131072, .f32⟩
  | .local _ .vmem, ⟨11, _⟩ => ⟨S2x131072, .f32⟩
  | _, _ => ⟨S2x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48_0 : Ref sig .tc := ⟨.hbm, 55, rfl⟩
abbrev main_v48_1 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c32768_i32 : BitVec 32 := 32768#32
  let v8 : BitVec 32 := Scalar.muli c0_i32 c32768_i32
  v8
def k0_off1 (c0_i32 : BitVec 32) : Fin 2 → Nat :=
  let c0_7 : Index := 0#32
  let c32768_i32 : BitVec 32 := 32768#32
  let v8 : BitVec 32 := Scalar.muli c0_i32 c32768_i32
  let v9 : BitVec 32 := v8
  let v10 : Index := Scalar.indexCast v9
  ![0, v10.toNat]
def k0_off2 (c0_i32 : BitVec 32) : Fin 2 → Nat :=
  let c0_8 : Index := 0#32
  let c32768_i32 : BitVec 32 := 32768#32
  let v8 : BitVec 32 := Scalar.muli c0_i32 c32768_i32
  let v9 : BitVec 32 := v8
  let v12 : Index := Scalar.indexCast v9
  ![0, v12.toNat]
def k0_mult2 : BitVec 32 :=
  let c1_i32 : BitVec 32 := 1#32
  let c32768_i32_14 : BitVec 32 := 32768#32
  let v24 : BitVec 32 := Scalar.muli c1_i32 c32768_i32_14
  v24
def k0_mult3 : BitVec 32 :=
  let c2_i32 : BitVec 32 := 2#32
  let c32768_i32_23 : BitVec 32 := 32768#32
  let v40 : BitVec 32 := Scalar.muli c2_i32 c32768_i32_23
  v40
def k0_mult4 : BitVec 32 :=
  let c3_i32 : BitVec 32 := 3#32
  let c32768_i32_32 : BitVec 32 := 32768#32
  let v56 : BitVec 32 := Scalar.muli c3_i32 c32768_i32_32
  v56
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x131072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x131072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x131072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x131072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x4_S4x4_1_0 : S4x4.Transposes [1, 0] S4x4
  transposes_S2x4_S4x2_1_0 : S2x4.Transposes [1, 0] S4x2
  slices_S2x2_S1x1_0_0 : S2x2.Slices ![0, 0] S1x1
  shapeCasts_S1x1_S_ : S1x1.ShapeCasts S_
  slices_S2x2_S1x1_0_1 : S2x2.Slices ![0, 1] S1x1
  slices_S2x2_S1x1_1_0 : S2x2.Slices ![1, 0] S1x1
  slices_S2x2_S1x1_1_1 : S2x2.Slices ![1, 1] S1x1
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  concatenates_S1x2_S1x2_S2x2_d0 : Shape.Concatenates [S1x2, S1x2] S2x2 0
  bcast_S_S2x2 : S_.BroadcastsInDim S2x2 (![] : Fin 0 → Fin S2x2.rank)
  bcast_S_S4x4 : S_.BroadcastsInDim S4x4 (![] : Fin 0 → Fin S4x4.rank)
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S4x2_S4x2_0_0 : ∀ a, (![0, 0] : Fin 2 → Nat) a + S4x2.size a ≤ S4x2.size a
  h_S4x2 : 0 < S4x2.numel
  shapeCasts_S4x2_S4x2 : S4x2.ShapeCasts S4x2
  inb_S2x4_S2x4_0_0 : ∀ a, (![0, 0] : Fin 2 → Nat) a + S2x4.size a ≤ S2x4.size a
  h_S2x4 : 0 < S2x4.numel
  shapeCasts_S2x4_S2x4 : S2x4.ShapeCasts S2x4
  inb_S2x2_S2x2_0_0 : ∀ a, (![0, 0] : Fin 2 → Nat) a + S2x2.size a ≤ S2x2.size a
  h_S2x2 : 0 < S2x2.numel
  shapeCasts_S2x2_S2x2 : S2x2.ShapeCasts S2x2
  h_S4x32768 : 0 < S4x32768.numel
  h_S2x32768 : 0 < S2x32768.numel
  dot_S4x4_S4x4_S4x4_1_0_0_1_n_n_wf : DotDims.WF S4x4 S4x4 S4x4 [1] [0] [0] [1] [] []
  dot_S2x4_S4x4_S2x4_1_0_0_1_n_n_wf : DotDims.WF S2x4 S4x4 S2x4 [1] [0] [0] [1] [] []
  dot_S2x4_S4x2_S2x2_1_0_0_1_n_n_wf : DotDims.WF S2x4 S4x2 S2x2 [1] [0] [0] [1] [] []
  dot_S4x4_S4x2_S4x2_1_0_0_1_n_n_wf : DotDims.WF S4x4 S4x2 S4x2 [1] [0] [0] [1] [] []
  dot_S4x2_S2x2_S4x2_1_0_0_1_n_n_wf : DotDims.WF S4x2 S2x2 S4x2 [1] [0] [0] [1] [] []
  dot_S4x2_S2x4_S4x4_1_0_0_1_n_n_wf : DotDims.WF S4x2 S2x4 S4x4 [1] [0] [0] [1] [] []
  dot_S4x4_S4x32768_S4x32768_1_0_0_1_n_n_wf : DotDims.WF S4x4 S4x32768 S4x32768 [1] [0] [0] [1] [] []
  dot_S4x2_S2x32768_S4x32768_1_0_0_1_n_n_wf : DotDims.WF S4x2 S2x32768 S4x32768 [1] [0] [0] [1] [] []
  dot_S2x4_S4x32768_S2x32768_1_0_0_1_n_n_wf : DotDims.WF S2x4 S4x32768 S2x32768 [1] [0] [0] [1] [] []
  dot_S2x2_S2x32768_S2x32768_1_0_0_1_n_n_wf : DotDims.WF S2x2 S2x32768 S2x32768 [1] [0] [0] [1] [] []
  hrank0 : 0 < grid0.rank
  k0_mult1_dvd : 128 ∣ k0_mult1.toNat
  k0_off1_inb : ∀ (r : Fin 4), ∀ a, (k0_off1 (BitVec.ofNat 32 r.val)) a + S4x32768.size a ≤ S4x131072.size a
  k0_off2_inb : ∀ (r : Fin 4), ∀ a, (k0_off2 (BitVec.ofNat 32 r.val)) a + S2x32768.size a ≤ S2x131072.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x4.size a ≤ S4x4.size a
  hwx0_0 : ∀ i : grid0.Coords, EltTy.bits .f32 = 32 ∨ (Rect.block (s := S4x4) S4x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2.size a ≤ S4x2.size a
  hwx0_1 : ∀ i : grid0.Coords, EltTy.bits .f32 = 32 ∨ (Rect.block (s := S4x2) S4x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x4.size a ≤ S2x4.size a
  hwx0_2 : ∀ i : grid0.Coords, EltTy.bits .f32 = 32 ∨ (Rect.block (s := S2x4) S2x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2.size a ≤ S2x2.size a
  hwx0_3 : ∀ i : grid0.Coords, EltTy.bits .f32 = 32 ∨ (Rect.block (s := S2x2) S2x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x131072.size a ≤ S2x4194304.size a
  hwx0_4 : ∀ i : grid0.Coords, EltTy.bits .f32 = 32 ∨ (Rect.block (s := S2x4194304) S2x131072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x131072.size a ≤ S4x4194304.size a
  hwx0_5 : ∀ i : grid0.Coords, EltTy.bits .f32 = 32 ∨ (Rect.block (s := S4x4194304) S4x131072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x131072.size a ≤ S4x4194304.size a
  hwx0_6 : ∀ i : grid0.Coords, EltTy.bits .f32 = 32 ∨ (Rect.block (s := S4x4194304) S4x131072.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x131072.size a ≤ S2x4194304.size a
  hwx0_7 : ∀ i : grid0.Coords, EltTy.bits .f32 = 32 ∨ (Rect.block (s := S2x4194304) S2x131072.size (cc0_transform_7 i) (hinb0_7 i)).WholeWords (EltTy.packing .f32)

variable [Facts₀]

def dot_S4x4_S4x4_S4x4_1_0_0_1_n_n : DotDims S4x4 S4x4 S4x4 where
  lhsContracting := [1]
  rhsContracting := [0]
  lhsNonContracting := [0]
  rhsNonContracting := [1]
  lhsBatch := []
  rhsBatch := []
  wf := dot_S4x4_S4x4_S4x4_1_0_0_1_n_n_wf
def dot_S2x4_S4x4_S2x4_1_0_0_1_n_n : DotDims S2x4 S4x4 S2x4 where
  lhsContracting := [1]
  rhsContracting := [0]
  lhsNonContracting := [0]
  rhsNonContracting := [1]
  lhsBatch := []
  rhsBatch := []
  wf := dot_S2x4_S4x4_S2x4_1_0_0_1_n_n_wf
def dot_S2x4_S4x2_S2x2_1_0_0_1_n_n : DotDims S2x4 S4x2 S2x2 where
  lhsContracting := [1]
  rhsContracting := [0]
  lhsNonContracting := [0]
  rhsNonContracting := [1]
  lhsBatch := []
  rhsBatch := []
  wf := dot_S2x4_S4x2_S2x2_1_0_0_1_n_n_wf
def dot_S4x4_S4x2_S4x2_1_0_0_1_n_n : DotDims S4x4 S4x2 S4x2 where
  lhsContracting := [1]
  rhsContracting := [0]
  lhsNonContracting := [0]
  rhsNonContracting := [1]
  lhsBatch := []
  rhsBatch := []
  wf := dot_S4x4_S4x2_S4x2_1_0_0_1_n_n_wf
def dot_S4x2_S2x2_S4x2_1_0_0_1_n_n : DotDims S4x2 S2x2 S4x2 where
  lhsContracting := [1]
  rhsContracting := [0]
  lhsNonContracting := [0]
  rhsNonContracting := [1]
  lhsBatch := []
  rhsBatch := []
  wf := dot_S4x2_S2x2_S4x2_1_0_0_1_n_n_wf
def dot_S4x2_S2x4_S4x4_1_0_0_1_n_n : DotDims S4x2 S2x4 S4x4 where
  lhsContracting := [1]
  rhsContracting := [0]
  lhsNonContracting := [0]
  rhsNonContracting := [1]
  lhsBatch := []
  rhsBatch := []
  wf := dot_S4x2_S2x4_S4x4_1_0_0_1_n_n_wf
def dot_S4x4_S4x32768_S4x32768_1_0_0_1_n_n : DotDims S4x4 S4x32768 S4x32768 where
  lhsContracting := [1]
  rhsContracting := [0]
  lhsNonContracting := [0]
  rhsNonContracting := [1]
  lhsBatch := []
  rhsBatch := []
  wf := dot_S4x4_S4x32768_S4x32768_1_0_0_1_n_n_wf
def dot_S4x2_S2x32768_S4x32768_1_0_0_1_n_n : DotDims S4x2 S2x32768 S4x32768 where
  lhsContracting := [1]
  rhsContracting := [0]
  lhsNonContracting := [0]
  rhsNonContracting := [1]
  lhsBatch := []
  rhsBatch := []
  wf := dot_S4x2_S2x32768_S4x32768_1_0_0_1_n_n_wf
def dot_S2x4_S4x32768_S2x32768_1_0_0_1_n_n : DotDims S2x4 S4x32768 S2x32768 where
  lhsContracting := [1]
  rhsContracting := [0]
  lhsNonContracting := [0]
  rhsNonContracting := [1]
  lhsBatch := []
  rhsBatch := []
  wf := dot_S2x4_S4x32768_S2x32768_1_0_0_1_n_n_wf
def dot_S2x2_S2x32768_S2x32768_1_0_0_1_n_n : DotDims S2x2 S2x32768 S2x32768 where
  lhsContracting := [1]
  rhsContracting := [0]
  lhsNonContracting := [0]
  rhsNonContracting := [1]
  lhsBatch := []
  rhsBatch := []
  wf := dot_S2x2_S2x32768_S2x32768_1_0_0_1_n_n_wf

abbrev win0_0 : Pipeline.Window sig grid0 :=
  Pipeline.Window.ofSpec (Memref.whole main_v45) S4x4.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v33) S4x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2x131072.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S4x131072.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v48_0) S4x131072.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v48_1) S2x131072.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x4194304 : Shape := ⟨2, ![2, 4194304]⟩
abbrev S2x2 : Shape := ⟨2, ![2, 2]⟩
abbrev S4x4194304 : Shape := ⟨2, ![4, 4194304]⟩
abbrev S4x4 : Shape := ⟨2, ![4, 4]⟩
abbrev S2x4 : Shape := ⟨2, ![2, 4]⟩
abbrev S4x2 : Shape := ⟨2, ![4, 2]⟩
abbrev S1x1 : Shape := ⟨2, ![1, 1]⟩
abbrev S_ : Shape := ⟨0, ![]⟩
abbrev S1 : Shape := ⟨1, ![1]⟩
abbrev S2 : Shape := ⟨1, ![2]⟩
abbrev S1x2 : Shape := ⟨2, ![1, 2]⟩

abbrev nBuf : Space → Nat
  | .hbm => 49
  | .vmem => 0
  | .smem => 0
  | _ => 0

abbrev bufTy : (tb : Table) → Fin (tcTables nBuf tb) → BufTy
  | .hbm, ⟨0, _⟩ => ⟨S2x4194304, .f32⟩
  | .hbm, ⟨1, _⟩ => ⟨S2x2, .f32⟩
  | .hbm, ⟨2, _⟩ => ⟨S4x4194304, .f32⟩
  | .hbm, ⟨3, _⟩ => ⟨S4x4, .f32⟩
  | .hbm, ⟨4, _⟩ => ⟨S4x4, .f32⟩
  | .hbm, ⟨5, _⟩ => ⟨S2x4, .f32⟩
  | .hbm, ⟨6, _⟩ => ⟨S4x4194304, .f32⟩
  | .hbm, ⟨7, _⟩ => ⟨S4x4, .f32⟩
  | .hbm, ⟨8, _⟩ => ⟨S4x4, .f32⟩
  | .hbm, ⟨9, _⟩ => ⟨S4x4, .f32⟩
  | .hbm, ⟨10, _⟩ => ⟨S2x4, .f32⟩
  | .hbm, ⟨11, _⟩ => ⟨S4x2, .f32⟩
  | .hbm, ⟨12, _⟩ => ⟨S2x2, .f32⟩
  | .hbm, ⟨13, _⟩ => ⟨S2x2, .f32⟩
  | .hbm, ⟨14, _⟩ => ⟨S4x2, .f32⟩
  | .hbm, ⟨15, _⟩ => ⟨S4x2, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S2, .f32⟩
  | .hbm, ⟨32, _⟩ => ⟨S1x2, .f32⟩
  | .hbm, ⟨33, _⟩ => ⟨S1, .f32⟩
  | .hbm, ⟨34, _⟩ => ⟨S1, .f32⟩
  | .hbm, ⟨35, _⟩ => ⟨S2, .f32⟩
  | .hbm, ⟨36, _⟩ => ⟨S1x2, .f32⟩
  | .hbm, ⟨37, _⟩ => ⟨S2x2, .f32⟩
  | .hbm, ⟨38, _⟩ => ⟨S2x2, .f32⟩
  | .hbm, ⟨39, _⟩ => ⟨S2x2, .f32⟩
  | .hbm, ⟨40, _⟩ => ⟨S4x2, .f32⟩
  | .hbm, ⟨41, _⟩ => ⟨S2x4194304, .f32⟩
  | .hbm, ⟨42, _⟩ => ⟨S2x4194304, .f32⟩
  | .hbm, ⟨43, _⟩ => ⟨S4x4194304, .f32⟩
  | .hbm, ⟨44, _⟩ => ⟨S4x4194304, .f32⟩
  | .hbm, ⟨45, _⟩ => ⟨S2x4, .f32⟩
  | .hbm, ⟨46, _⟩ => ⟨S4x4, .f32⟩
  | .hbm, ⟨47, _⟩ => ⟨S4x4, .f32⟩
  | .hbm, ⟨48, _⟩ => ⟨S2x4194304, .f32⟩
  | _, _ => ⟨S2x4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]

class Facts₀ : Prop where
  transposes_S4x4_S4x4_1_0 : S4x4.Transposes [1, 0] S4x4
  transposes_S2x4_S4x2_1_0 : S2x4.Transposes [1, 0] S4x2
  slices_S2x2_S1x1_0_0 : S2x2.Slices ![0, 0] S1x1
  shapeCasts_S1x1_S_ : S1x1.ShapeCasts S_
  slices_S2x2_S1x1_0_1 : S2x2.Slices ![0, 1] S1x1
  slices_S2x2_S1x1_1_0 : S2x2.Slices ![1, 0] S1x1
  slices_S2x2_S1x1_1_1 : S2x2.Slices ![1, 1] S1x1
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  concatenates_S1x2_S1x2_S2x2_d0 : Shape.Concatenates [S1x2, S1x2] S2x2 0
  bcast_S_S2x2 : S_.BroadcastsInDim S2x2 (![] : Fin 0 → Fin S2x2.rank)
  dot_S4x4_S4x4194304_S4x4194304_1_0_0_1_n_n_wf : DotDims.WF S4x4 S4x4194304 S4x4194304 [1] [0] [0] [1] [] []
  dot_S4x4_S4x4_S4x4_1_0_0_1_n_n_wf : DotDims.WF S4x4 S4x4 S4x4 [1] [0] [0] [1] [] []
  dot_S2x4_S4x4_S2x4_1_0_0_1_n_n_wf : DotDims.WF S2x4 S4x4 S2x4 [1] [0] [0] [1] [] []
  dot_S2x4_S4x2_S2x2_1_0_0_1_n_n_wf : DotDims.WF S2x4 S4x2 S2x2 [1] [0] [0] [1] [] []
  dot_S4x4_S4x2_S4x2_1_0_0_1_n_n_wf : DotDims.WF S4x4 S4x2 S4x2 [1] [0] [0] [1] [] []
  dot_S4x2_S2x2_S4x2_1_0_0_1_n_n_wf : DotDims.WF S4x2 S2x2 S4x2 [1] [0] [0] [1] [] []
  dot_S2x4_S4x4194304_S2x4194304_1_0_0_1_n_n_wf : DotDims.WF S2x4 S4x4194304 S2x4194304 [1] [0] [0] [1] [] []
  dot_S4x2_S2x4194304_S4x4194304_1_0_0_1_n_n_wf : DotDims.WF S4x2 S2x4194304 S4x4194304 [1] [0] [0] [1] [] []
  dot_S4x2_S2x4_S4x4_1_0_0_1_n_n_wf : DotDims.WF S4x2 S2x4 S4x4 [1] [0] [0] [1] [] []

variable [Facts₀]

def dot_S4x4_S4x4194304_S4x4194304_1_0_0_1_n_n : DotDims S4x4 S4x4194304 S4x4194304 where
  lhsContracting := [1]
  rhsContracting := [0]
  lhsNonContracting := [0]
  rhsNonContracting := [1]
  lhsBatch := []
  rhsBatch := []
  wf := dot_S4x4_S4x4194304_S4x4194304_1_0_0_1_n_n_wf
def dot_S4x4_S4x4_S4x4_1_0_0_1_n_n : DotDims S4x4 S4x4 S4x4 where
  lhsContracting := [1]
  rhsContracting := [0]
  lhsNonContracting := [0]
  rhsNonContracting := [1]
  lhsBatch := []
  rhsBatch := []
  wf := dot_S4x4_S4x4_S4x4_1_0_0_1_n_n_wf
def dot_S2x4_S4x4_S2x4_1_0_0_1_n_n : DotDims S2x4 S4x4 S2x4 where
  lhsContracting := [1]
  rhsContracting := [0]
  lhsNonContracting := [0]
  rhsNonContracting := [1]
  lhsBatch := []
  rhsBatch := []
  wf := dot_S2x4_S4x4_S2x4_1_0_0_1_n_n_wf
def dot_S2x4_S4x2_S2x2_1_0_0_1_n_n : DotDims S2x4 S4x2 S2x2 where
  lhsContracting := [1]
  rhsContracting := [0]
  lhsNonContracting := [0]
  rhsNonContracting := [1]
  lhsBatch := []
  rhsBatch := []
  wf := dot_S2x4_S4x2_S2x2_1_0_0_1_n_n_wf
def dot_S4x4_S4x2_S4x2_1_0_0_1_n_n : DotDims S4x4 S4x2 S4x2 where
  lhsContracting := [1]
  rhsContracting := [0]
  lhsNonContracting := [0]
  rhsNonContracting := [1]
  lhsBatch := []
  rhsBatch := []
  wf := dot_S4x4_S4x2_S4x2_1_0_0_1_n_n_wf
def dot_S4x2_S2x2_S4x2_1_0_0_1_n_n : DotDims S4x2 S2x2 S4x2 where
  lhsContracting := [1]
  rhsContracting := [0]
  lhsNonContracting := [0]
  rhsNonContracting := [1]
  lhsBatch := []
  rhsBatch := []
  wf := dot_S4x2_S2x2_S4x2_1_0_0_1_n_n_wf
def dot_S2x4_S4x4194304_S2x4194304_1_0_0_1_n_n : DotDims S2x4 S4x4194304 S2x4194304 where
  lhsContracting := [1]
  rhsContracting := [0]
  lhsNonContracting := [0]
  rhsNonContracting := [1]
  lhsBatch := []
  rhsBatch := []
  wf := dot_S2x4_S4x4194304_S2x4194304_1_0_0_1_n_n_wf
def dot_S4x2_S2x4194304_S4x4194304_1_0_0_1_n_n : DotDims S4x2 S2x4194304 S4x4194304 where
  lhsContracting := [1]
  rhsContracting := [0]
  lhsNonContracting := [0]
  rhsNonContracting := [1]
  lhsBatch := []
  rhsBatch := []
  wf := dot_S4x2_S2x4194304_S4x4194304_1_0_0_1_n_n_wf
def dot_S4x2_S2x4_S4x4_1_0_0_1_n_n : DotDims S4x2 S2x4 S4x4 where
  lhsContracting := [1]
  rhsContracting := [0]
  lhsNonContracting := [0]
  rhsNonContracting := [1]
  lhsBatch := []
  rhsBatch := []
  wf := dot_S4x2_S2x4_S4x4_1_0_0_1_n_n_wf

class Facts : Prop extends Facts₀ where

variable [Facts]
-- ==== Proof.Spec.lean ====
/-
  The Kalman update's two batch results as functions of small coefficient matrices and the two wide arrays, entry by
  entry, on the extended reals.

  Notation: B = 4194304 columns, each an independent 4-vector state g(:, b) with a 2-vector observation z(:, b).
  * the folded form: for coefficient matrices Wg (4×4), Wz (4×2), Cg (2×4), Cz (2×2)
      gOut(a, b) = Σ_c Wg(a, c)·g(c, b) + Σ_k Wz(a, k)·z(k, b)        zOut(r, b) = Σ_c Cg(r, c)·g(c, b) + Σ_k Cz(r, k)·z(k, b);
  * the predict-then-correct form: for a transition matrix Φ (4×4), an observation matrix Ψ (2×4) and a gain K (4×2)
      p(a, b) = Σ_c Φ(a, c)·g(c, b)      gUpd(a, b) = p(a, b) + Σ_k K(a, k)·(z(k, b) − Σ_l Ψ(k, l)·p(l, b))
      zUpd(r, b) = Σ_a Ψ(r, a)·gUpd(a, b).
-/
import Idealize.ShloMosaic.PureOps.Ideal
import Idealize.ShloMosaic.Lib.ValueIdx

noncomputable section

open scoped BigOperators

namespace Cert.Kalman

open Idealize.ShloMosaic Idealize.ShloMosaic.ValueIdx

/-- Number of batch columns. -/
abbrev nB : Nat := 4194304

abbrev M44 : Shape := ⟨2, ![4, 4]⟩
abbrev M42 : Shape := ⟨2, ![4, 2]⟩
abbrev M24 : Shape := ⟨2, ![2, 4]⟩
abbrev M22 : Shape := ⟨2, ![2, 2]⟩
abbrev A4B : Shape := ⟨2, ![4, 4194304]⟩
abbrev A2B : Shape := ⟨2, ![2, 4194304]⟩

/-- The folded state update: entry (a, b) is row a of Wg against column b of g plus row a of Wz against column b of z. -/
def gOut (Wg : M44.Idx → EReal) (Wz : M42.Idx → EReal) (z : A2B.Idx → EReal) (g : A4B.Idx → EReal) : A4B.Idx → EReal :=
  fun i => (∑ c : Fin 4, Wg (ix2 (n0 := 4) (n1 := 4) (i 0) c) * g (ix2 (n0 := 4) (n1 := 4194304) c (i 1)))
    + ∑ k : Fin 2, Wz (ix2 (n0 := 4) (n1 := 2) (i 0) k) * z (ix2 (n0 := 2) (n1 := 4194304) k (i 1))

/-- The folded observation update: entry (r, b) is row r of Cg against column b of g plus row r of Cz against column b of z. -/
def zOut (Cg : M24.Idx → EReal) (Cz : M22.Idx → EReal) (z : A2B.Idx → EReal) (g : A4B.Idx → EReal) : A2B.Idx → EReal :=
  fun i => (∑ c : Fin 4, Cg (ix2 (n0 := 2) (n1 := 4) (i 0) c) * g (ix2 (n0 := 4) (n1 := 4194304) c (i 1)))
    + ∑ k : Fin 2, Cz (ix2 (n0 := 2) (n1 := 2) (i 0) k) * z (ix2 (n0 := 2) (n1 := 4194304) k (i 1))

/-- The predicted state Φ·g at entry (a, b). -/
def pred (Φ : M44.Idx → EReal) (g : A4B.Idx → EReal) (a : Fin 4) (b : Fin 4194304) : EReal :=
  ∑ c : Fin 4, Φ (ix2 (n0 := 4) (n1 := 4) a c) * g (ix2 (n0 := 4) (n1 := 4194304) c b)

/-- The corrected state: the prediction plus the gain applied to the innovation z − Ψ·(Φ·g). -/
def gUpd (K : M42.Idx → EReal) (Φ : M44.Idx → EReal) (Ψ : M24.Idx → EReal) (z : A2B.Idx → EReal) (g : A4B.Idx → EReal) :
    A4B.Idx → EReal :=
  fun i => pred Φ g (i 0) (i 1)
    + ∑ k : Fin 2, K (ix2 (n0 := 4) (n1 := 2) (i 0) k)
        * (z (ix2 (n0 := 2) (n1 := 4194304) k (i 1)) - ∑ l : Fin 4, Ψ (ix2 (n0 := 2) (n1 := 4) k l) * pred Φ g l (i 1))

/-- The corrected observation Ψ·gUpd. -/
def zUpd (K : M42.Idx → EReal) (Φ : M44.Idx → EReal) (Ψ : M24.Idx → EReal) (z : A2B.Idx → EReal) (g : A4B.Idx → EReal) :
    A2B.Idx → EReal :=
  fun i => ∑ a : Fin 4, Ψ (ix2 (n0 := 2) (n1 := 4) (i 0) a) * gUpd K Φ Ψ z g (ix2 (n0 := 4) (n1 := 4194304) a (i 1))

end Cert.Kalman

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.PreDecode.lean ====
/-
  What the precondition says, decoded: every entry of the six argument arrays is a real number, and the determinant of
  the innovation covariance S = Ψ·(Φ·H·Φᵀ)·Ψᵀ + N — the number the reference divides by — is not zero.
-/
import proofs.«178990_j592705487346_2_alg».proof.Proof.Gen.Pre_finite_inputs
import proofs.«178990_j592705487346_2_alg».proof.Proof.Gen.ReferenceIdeal.Read
import proofs.«178990_j592705487346_2_alg».proof.Proof.LibRealClosed
import Idealize.ShloMosaic.Lib.ReduceAll
import Idealize.ShloMosaic.Lib.Affine

noncomputable section

namespace Cert.PreDecode

open Idealize.ShloMosaic Cert.LibRealClosed

instance : Subsingleton Cert.Pre_finite_inputs.S_.Idx := ⟨fun a b => funext fun d => d.elim0⟩

/-- The pattern of +∞ denotes the top of the extended reals. -/
theorem inf_eq_top : Ideal.ofBits .f32 0x7F800000#32 = (⊤ : EReal) := by
  simp [Ideal.ofBits, Ideal.ieee]

/-- A strict comparison that answers 1 holds. -/
theorem lt_of_cmp_olt {x y : EReal} (h : Ideal.cmp .olt x y = 1#1) : x < y := by
  by_contra hn
  have h0 : Ideal.cmp .olt x y = 0#1 := by
    show BitVec.ofBool (decide (x < y)) = 0#1
    rw [decide_eq_false hn]; rfl
  rw [h0] at h; exact absurd h (by decide)

/-- A "not equal" comparison that answers 1 holds. -/
theorem ne_of_cmp_une {x y : EReal} (h : Ideal.cmp .une x y = 1#1) : x ≠ y := by
  intro hn
  have h0 : Ideal.cmp .une x y = 0#1 := by
    show BitVec.ofBool (decide (x ≠ y)) = 0#1
    rw [decide_eq_false (not_not.2 hn)]; rfl
  rw [h0] at h; exact absurd h (by decide)

/-- An array whose entries all have absolute value below +∞ is an array of reals. -/
theorem allReal_of_all_lt {S : Shape} (x : FVec Ideal S .f32) (axes : List (Fin S.rank))
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi (cmpf .olt (Host.absf x) (broadcastInDim S ![] hb (constant (F := Ideal) Cert.Pre_finite_inputs.S_ .f32 0x7F800000#32)))
          (constantI Cert.Pre_finite_inputs.S_ 1 1#1) hr hu ValueIdx.ix0 = 1#1) : AllReal x := by
  intro i
  have h := Host.reduce_andi_all _ _ hr hu ValueIdx.ix0 e i
  have h2 : Ideal.cmp .olt (max (x i) (-(x i))) (Ideal.ofBits .f32 0x7F800000#32) = 1#1 := h
  rw [inf_eq_top] at h2
  exact isReal_of_abs_lt_top (lt_of_cmp_olt h2)

open Cert.Pre_finite_inputs in
/-- The precondition, read: the six arrays hold reals and the determinant term is not zero. The determinant is stated
    as the reference's own term for it: the precondition spells the same operations in the same order. -/
theorem decode (x0 : FVec Ideal S2x4194304 .f32) (x1 : FVec Ideal S2x2 .f32) (x2 : FVec Ideal S4x4194304 .f32)
    (x3 x4 : FVec Ideal S4x4 .f32) (x5 : FVec Ideal S2x4 .f32)
    (h : Cert.Pre_finite_inputs.fn (F := Ideal) x0 x1 x2 x3 x4 x5 = fun _ => 1#1) :
    AllReal x0 ∧ AllReal x1 ∧ AllReal x2 ∧ AllReal x3 ∧ AllReal x4 ∧ AllReal x5
      ∧ Cert.ReferenceIdeal.Read.val_main_v20 (F := Ideal) x1 x3 x4 x5 ValueIdx.ix0 ≠ 0 := by
  have h0 := congrFun h ValueIdx.ix0
  dsimp only [Cert.Pre_finite_inputs.fn, Cert.Pre_finite_inputs.fn_part1, Cert.Pre_finite_inputs.fn_part2] at h0
  obtain ⟨h28, hdet⟩ := IntOp.andi_eq_one.mp h0
  obtain ⟨h23, h27⟩ := IntOp.andi_eq_one.mp h28
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  refine ⟨allReal_of_all_lt x0 _ _ _ _ h3, allReal_of_all_lt x1 _ _ _ _ h7, allReal_of_all_lt x2 _ _ _ _ h12,
    allReal_of_all_lt x3 _ _ _ _ h17, allReal_of_all_lt x4 _ _ _ _ h22, allReal_of_all_lt x5 _ _ _ _ h27, ?_⟩
  have hd : Ideal.cmp .une (Cert.ReferenceIdeal.Read.val_main_v20 (F := Ideal) x1 x3 x4 x5 ValueIdx.ix0)
      (Ideal.ofBits .f32 0x00000000#32) = 1#1 := hdet
  rw [Ideal.ofBits_zero_f32] at hd
  exact ne_of_cmp_une hd

end Cert.PreDecode

end
-- ==== Proof.KalmanAlgebra.lean ====
/-
  The algebra of the folded Kalman update, first over the reals and then on the extended reals for arrays of reals.
-/
import Mathlib.Tactic
import Idealize.ShloMosaic.PureOps.Ideal

noncomputable section

open scoped BigOperators

namespace Cert.KalmanAlgebra

/-- Over the reals: with W = (I − κ·ψ)·φ, the folded state update W·γ + κ·ζ is the prediction φ·γ corrected by the gain
    applied to the innovation ζ − ψ·(φ·γ): distribute κ over the difference and regroup the triple sum. -/
theorem fold_state (κ : Fin 4 → Fin 2 → ℝ) (φ : Fin 4 → Fin 4 → ℝ) (ψ : Fin 2 → Fin 4 → ℝ) (γ : Fin 4 → ℝ) (ζ : Fin 2 → ℝ)
    (a : Fin 4) :
    (∑ c : Fin 4, (∑ l : Fin 4, ((if a = l then (1 : ℝ) else 0) - ∑ k : Fin 2, κ a k * ψ k l) * φ l c) * γ c)
        + ∑ k : Fin 2, κ a k * ζ k
      = (∑ c : Fin 4, φ a c * γ c)
        + ∑ k : Fin 2, κ a k * (ζ k - ∑ l : Fin 4, ψ k l * ∑ c : Fin 4, φ l c * γ c) := by
  simp only [Fin.sum_univ_four, Fin.sum_univ_two]
  fin_cases a <;> simp <;> ring

/-- Over the reals: the folded observation update (ψ·W)·γ + (ψ·κ)·ζ is ψ applied to the folded state update. -/
theorem fold_obs (κ : Fin 4 → Fin 2 → ℝ) (W : Fin 4 → Fin 4 → ℝ) (ψ : Fin 2 → Fin 4 → ℝ) (γ : Fin 4 → ℝ) (ζ : Fin 2 → ℝ)
    (r : Fin 2) :
    (∑ c : Fin 4, (∑ a : Fin 4, ψ r a * W a c) * γ c) + ∑ k : Fin 2, (∑ a : Fin 4, ψ r a * κ a k) * ζ k
      = ∑ a : Fin 4, ψ r a * ((∑ c : Fin 4, W a c * γ c) + ∑ k : Fin 2, κ a k * ζ k) := by
  simp only [Fin.sum_univ_four, Fin.sum_univ_two]
  ring

/-- The same two identities on the extended reals, for entries that are coercions of reals. -/
theorem fold_state_coe (κ : Fin 4 → Fin 2 → ℝ) (φ : Fin 4 → Fin 4 → ℝ) (ψ : Fin 2 → Fin 4 → ℝ) (γ : Fin 4 → ℝ) (ζ : Fin 2 → ℝ)
    (a : Fin 4) :
    (∑ c : Fin 4, (∑ l : Fin 4, ((if a = l then (1 : EReal) else 0) - ∑ k : Fin 2, (κ a k : EReal) * (ψ k l : EReal)) * (φ l c : EReal)) * (γ c : EReal))
        + ∑ k : Fin 2, (κ a k : EReal) * (ζ k : EReal)
      = (∑ c : Fin 4, (φ a c : EReal) * (γ c : EReal))
        + ∑ k : Fin 2, (κ a k : EReal) * ((ζ k : EReal) - ∑ l : Fin 4, (ψ k l : EReal) * ∑ c : Fin 4, (φ l c : EReal) * (γ c : EReal)) := by
  have h := fold_state κ φ ψ γ ζ a
  have hif : ∀ l : Fin 4, (if a = l then (1 : EReal) else 0) = (((if a = l then (1 : ℝ) else 0) : ℝ) : EReal) := by
    intro l; split <;> rfl
  simp only [Fin.sum_univ_four, Fin.sum_univ_two, hif] at h ⊢
  exact_mod_cast h

theorem fold_obs_coe (κ : Fin 4 → Fin 2 → ℝ) (W : Fin 4 → Fin 4 → ℝ) (ψ : Fin 2 → Fin 4 → ℝ) (γ : Fin 4 → ℝ) (ζ : Fin 2 → ℝ)
    (r : Fin 2) :
    (∑ c : Fin 4, (∑ a : Fin 4, (ψ r a : EReal) * (W a c : EReal)) * (γ c : EReal)) + ∑ k : Fin 2, (∑ a : Fin 4, (ψ r a : EReal) * (κ a k : EReal)) * (ζ k : EReal)
      = ∑ a : Fin 4, (ψ r a : EReal) * ((∑ c : Fin 4, (W a c : EReal) * (γ c : EReal)) + ∑ k : Fin 2, (κ a k : EReal) * (ζ k : EReal)) := by
  have h := fold_obs κ W ψ γ ζ r
  simp only [Fin.sum_univ_four, Fin.sum_univ_two] at h ⊢
  exact_mod_cast h

end Cert.KalmanAlgebra

end
-- ==== Proof.Fold.lean ====
/-
  The folded update equals predict-then-correct, on the extended reals, for arrays of reals.

  The kernel's state result is W·g + K·z with W = (I − K·Ψ)·Φ; the reference's is Φ·g + K·(z − Ψ·(Φ·g)). They agree
  because K distributes over the difference and the triple sum regroups — laws that hold when every entry in sight is
  a real number (K included), and fail at the infinities. The observation result follows: Ψ distributes over the sum.
-/
import proofs.«178990_j592705487346_2_alg».proof.Proof.Spec
import proofs.«178990_j592705487346_2_alg».proof.Proof.LibRealClosed
import proofs.«178990_j592705487346_2_alg».proof.Proof.KalmanAlgebra

noncomputable section

open scoped BigOperators

namespace Cert.Kalman

open Idealize.ShloMosaic Idealize.ShloMosaic.ValueIdx Cert.LibRealClosed

variable (Wg : FVec Ideal M44 .f32) (K : FVec Ideal M42 .f32) (Φ : FVec Ideal M44 .f32) (Ψ : FVec Ideal M24 .f32)
  (z : FVec Ideal A2B .f32) (g : FVec Ideal A4B .f32)

/-- Entry (a, c) of (I − K·Ψ)·Φ. -/
def foldedW (K : FVec Ideal M42 .f32) (Φ : FVec Ideal M44 .f32) (Ψ : FVec Ideal M24 .f32) (a c : Fin 4) : EReal :=
  ∑ l : Fin 4, ((if a = l then (1 : EReal) else 0)
      - ∑ k : Fin 2, K (ix2 (n0 := 4) (n1 := 2) a k) * Ψ (ix2 (n0 := 2) (n1 := 4) k l)) * Φ (ix2 (n0 := 4) (n1 := 4) l c)

/-- Entry (r, c) of Ψ·W for a 4×4 matrix W, and entry (r, k) of Ψ·K for the 4×2 gain. -/
def obsW (Ψ : FVec Ideal M24 .f32) (W : FVec Ideal M44 .f32) (r : Fin 2) (c : Fin 4) : EReal :=
  ∑ a : Fin 4, Ψ (ix2 (n0 := 2) (n1 := 4) r a) * W (ix2 (n0 := 4) (n1 := 4) a c)
def obsK (Ψ : FVec Ideal M24 .f32) (K : FVec Ideal M42 .f32) (r k : Fin 2) : EReal :=
  ∑ a : Fin 4, Ψ (ix2 (n0 := 2) (n1 := 4) r a) * K (ix2 (n0 := 4) (n1 := 2) a k)

theorem foldedW_isReal (hK : AllReal K) (hΦ : AllReal Φ) (hΨ : AllReal Ψ) (a c : Fin 4) : IsReal (foldedW K Φ Ψ a c) := by
  unfold foldedW
  refine IsReal.sum _ _ fun l _ => IsReal.mul (IsReal.sub ?_ (IsReal.sum _ _ fun k _ => (hK _).mul (hΨ _))) (hΦ _)
  split
  · exact IsReal.one
  · exact IsReal.zero

/-- The state results agree when the first coefficient matrix is (I − K·Ψ)·Φ and every entry is real. -/
theorem gOut_eq_gUpd (hK : AllReal K) (hΦ : AllReal Φ) (hΨ : AllReal Ψ) (hz : AllReal z) (hg : AllReal g)
    (hWg : ∀ a c : Fin 4, Wg (ix2 (n0 := 4) (n1 := 4) a c) = foldedW K Φ Ψ a c) :
    gOut Wg K z g = gUpd K Φ Ψ z g := by
  funext i
  obtain ⟨a, b, rfl⟩ : ∃ (a : Fin 4) (b : Fin 4194304), i = ix2 a b := ⟨i 0, i 1, eq_ix2 i⟩
  choose κ hκ using fun (a : Fin 4) (k : Fin 2) => hK (ix2 (n0 := 4) (n1 := 2) a k)
  choose φ hφ using fun (l c : Fin 4) => hΦ (ix2 (n0 := 4) (n1 := 4) l c)
  choose ψ hψ using fun (k : Fin 2) (l : Fin 4) => hΨ (ix2 (n0 := 2) (n1 := 4) k l)
  choose γ hγ using fun (c : Fin 4) => hg (ix2 (n0 := 4) (n1 := 4194304) c b)
  choose ζ hζ using fun (k : Fin 2) => hz (ix2 (n0 := 2) (n1 := 4194304) k b)
  show (∑ c : Fin 4, Wg (ix2 (n0 := 4) (n1 := 4) a c) * g (ix2 (n0 := 4) (n1 := 4194304) c b))
      + ∑ k : Fin 2, K (ix2 (n0 := 4) (n1 := 2) a k) * z (ix2 (n0 := 2) (n1 := 4194304) k b)
    = (∑ c : Fin 4, Φ (ix2 (n0 := 4) (n1 := 4) a c) * g (ix2 (n0 := 4) (n1 := 4194304) c b))
      + ∑ k : Fin 2, K (ix2 (n0 := 4) (n1 := 2) a k)
          * (z (ix2 (n0 := 2) (n1 := 4194304) k b)
              - ∑ l : Fin 4, Ψ (ix2 (n0 := 2) (n1 := 4) k l) * ∑ c : Fin 4, Φ (ix2 (n0 := 4) (n1 := 4) l c) * g (ix2 (n0 := 4) (n1 := 4194304) c b))
  simp only [hWg, foldedW, hκ, hφ, hψ, hγ, hζ]
  exact Cert.KalmanAlgebra.fold_state_coe κ φ ψ γ ζ a

/-- The observation results agree when moreover the other two coefficient matrices are Ψ·W and Ψ·K. -/
theorem zOut_eq_zUpd (Cg : FVec Ideal M24 .f32) (Cz : FVec Ideal M22 .f32)
    (hK : AllReal K) (hΦ : AllReal Φ) (hΨ : AllReal Ψ) (hz : AllReal z) (hg : AllReal g)
    (hWg : ∀ a c : Fin 4, Wg (ix2 (n0 := 4) (n1 := 4) a c) = foldedW K Φ Ψ a c)
    (hCg : ∀ (r : Fin 2) (c : Fin 4), Cg (ix2 (n0 := 2) (n1 := 4) r c)
        = ∑ a : Fin 4, Ψ (ix2 (n0 := 2) (n1 := 4) r a) * Wg (ix2 (n0 := 4) (n1 := 4) a c))
    (hCz : ∀ r k : Fin 2, Cz (ix2 (n0 := 2) (n1 := 2) r k)
        = ∑ a : Fin 4, Ψ (ix2 (n0 := 2) (n1 := 4) r a) * K (ix2 (n0 := 4) (n1 := 2) a k)) :
    zOut Cg Cz z g = zUpd K Φ Ψ z g := by
  funext i
  obtain ⟨r, b, rfl⟩ : ∃ (r : Fin 2) (b : Fin 4194304), i = ix2 r b := ⟨i 0, i 1, eq_ix2 i⟩
  have hW : ∀ a c : Fin 4, IsReal (Wg (ix2 (n0 := 4) (n1 := 4) a c)) := fun a c => by
    rw [hWg]; exact foldedW_isReal K Φ Ψ hK hΦ hΨ a c
  choose κ hκ using fun (a : Fin 4) (k : Fin 2) => hK (ix2 (n0 := 4) (n1 := 2) a k)
  choose ω hω using hW
  choose ψ hψ using fun (k : Fin 2) (l : Fin 4) => hΨ (ix2 (n0 := 2) (n1 := 4) k l)
  choose γ hγ using fun (c : Fin 4) => hg (ix2 (n0 := 4) (n1 := 4194304) c b)
  choose ζ hζ using fun (k : Fin 2) => hz (ix2 (n0 := 2) (n1 := 4194304) k b)
  have step : zOut Cg Cz z g (ix2 r b)
      = ∑ a : Fin 4, Ψ (ix2 (n0 := 2) (n1 := 4) r a) * gOut Wg K z g (ix2 (n0 := 4) (n1 := 4194304) a b) := by
    show (∑ c : Fin 4, Cg (ix2 (n0 := 2) (n1 := 4) r c) * g (ix2 (n0 := 4) (n1 := 4194304) c b))
        + ∑ k : Fin 2, Cz (ix2 (n0 := 2) (n1 := 2) r k) * z (ix2 (n0 := 2) (n1 := 4194304) k b)
      = ∑ a : Fin 4, Ψ (ix2 (n0 := 2) (n1 := 4) r a)
          * ((∑ c : Fin 4, Wg (ix2 (n0 := 4) (n1 := 4) a c) * g (ix2 (n0 := 4) (n1 := 4194304) c b))
              + ∑ k : Fin 2, K (ix2 (n0 := 4) (n1 := 2) a k) * z (ix2 (n0 := 2) (n1 := 4194304) k b))
    simp only [hCg, hCz, hκ, hω, hψ, hγ, hζ]
    exact Cert.KalmanAlgebra.fold_obs_coe κ ω ψ γ ζ r
  rw [step, gOut_eq_gUpd Wg K Φ Ψ z g hK hΦ hΨ hz hg hWg]
  rfl

end Cert.Kalman

end
-- ==== Proof.RefSide.lean ====
/-
  The reference program's results, read.

  * The gain K = (Φ·H·Φᵀ·Ψᵀ)·(adj S / det S), S = Ψ·(Φ·H·Φᵀ)·Ψᵀ + N, is an array of reals when the four small arguments
    are and det S is not zero: every operation on the way is a matrix product, a transposition, a slice, a reshape, a
    broadcast, a join, a sum, a difference, a product, a negation — all closed on the reals — and one division, by det S.
  * The state result is the prediction corrected by K applied to the innovation, and the observation result is Ψ
    applied to it: the two functions of the specification, with that K.
-/
import proofs.«178990_j592705487346_2_alg».proof.Proof.Gen.ReferenceIdeal.Read
import proofs.«178990_j592705487346_2_alg».proof.Proof.Spec
import proofs.«178990_j592705487346_2_alg».proof.Proof.LibRealClosed
import Idealize.ShloMosaic.Lib.StackMember

noncomputable section

open scoped BigOperators

namespace Cert.RefSide

open Idealize.ShloMosaic Idealize.ShloMosaic.ValueIdx Cert.LibRealClosed
open Cert.ReferenceIdeal Cert.ReferenceIdeal.Read

variable (x0 : FVec Ideal S2x4194304 .f32) (x1 : FVec Ideal S2x2 .f32) (x2 : FVec Ideal S4x4194304 .f32)
  (x3 x4 : FVec Ideal S4x4 .f32) (x5 : FVec Ideal S2x4 .f32)

/-! ## The gain is an array of reals -/

/-- The predicted covariance Φ·H·Φᵀ. -/
theorem real_v3 (h3 : AllReal x3) (h4 : AllReal x4) : AllReal (φ := .f32) (val_main_v3 (F := Ideal) x3 x4) := by
  unfold val_main_v3 val_main_v1 val_main_v2
  exact AllReal.dotGeneral _ _ (AllReal.dotGeneral _ _ h4 h3) (AllReal.transpose _ _ h4)

/-- The innovation covariance S. -/
theorem real_v7 (h1 : AllReal x1) (h3 : AllReal x3) (h4 : AllReal x4) (h5 : AllReal x5) :
    AllReal (φ := .f32) (val_main_v7 (F := Ideal) x1 x3 x4 x5) := by
  unfold val_main_v7 val_main_v6 val_main_v4 val_main_v5
  exact AllReal.addf (AllReal.dotGeneral _ _ (AllReal.dotGeneral _ _ h5 (real_v3 x3 x4 h3 h4)) (AllReal.transpose _ _ h5)) h1

/-- The four entries of S as scalars. -/
theorem real_v11 (h7 : AllReal (φ := .f32) (val_main_v7 (F := Ideal) x1 x3 x4 x5)) : AllReal (φ := .f32) (val_main_v11 (F := Ideal) x1 x3 x4 x5) := by
  unfold val_main_v11 val_main_v10; exact AllReal.shapeCast _ (AllReal.slice _ _ h7)
theorem real_v13 (h7 : AllReal (φ := .f32) (val_main_v7 (F := Ideal) x1 x3 x4 x5)) : AllReal (φ := .f32) (val_main_v13 (F := Ideal) x1 x3 x4 x5) := by
  unfold val_main_v13 val_main_v12; exact AllReal.shapeCast _ (AllReal.slice _ _ h7)
theorem real_v15 (h7 : AllReal (φ := .f32) (val_main_v7 (F := Ideal) x1 x3 x4 x5)) : AllReal (φ := .f32) (val_main_v15 (F := Ideal) x1 x3 x4 x5) := by
  unfold val_main_v15 val_main_v14; exact AllReal.shapeCast _ (AllReal.slice _ _ h7)
theorem real_v17 (h7 : AllReal (φ := .f32) (val_main_v7 (F := Ideal) x1 x3 x4 x5)) : AllReal (φ := .f32) (val_main_v17 (F := Ideal) x1 x3 x4 x5) := by
  unfold val_main_v17 val_main_v16; exact AllReal.shapeCast _ (AllReal.slice _ _ h7)

/-- The adjugate [[d, −b], [−c, a]]. -/
theorem real_v31 (h7 : AllReal (φ := .f32) (val_main_v7 (F := Ideal) x1 x3 x4 x5)) : AllReal (φ := .f32) (val_main_v31 (F := Ideal) x1 x3 x4 x5) := by
  have h11 := real_v11 x1 x3 x4 x5 h7
  have h13 := real_v13 x1 x3 x4 x5 h7
  have h15 := real_v15 x1 x3 x4 x5 h7
  have h17 := real_v17 x1 x3 x4 x5 h7
  have h25 : AllReal (φ := .f32) (val_main_v25 (F := Ideal) x1 x3 x4 x5) := by
    unfold val_main_v25 val_main_v23 val_main_v24 val_main_v21
    refine AllReal.concatenate _ _ _ fun p hp => ?_
    rcases List.mem_cons.1 hp with rfl | hp
    · exact fun i => h17 _
    · rcases List.mem_cons.1 hp with rfl | hp
      · exact fun i => (h13 _).neg
      · exact absurd hp (List.not_mem_nil)
  have h29 : AllReal (φ := .f32) (val_main_v29 (F := Ideal) x1 x3 x4 x5) := by
    unfold val_main_v29 val_main_v27 val_main_v28 val_main_v22
    refine AllReal.concatenate _ _ _ fun p hp => ?_
    rcases List.mem_cons.1 hp with rfl | hp
    · exact fun i => (h15 _).neg
    · rcases List.mem_cons.1 hp with rfl | hp
      · exact fun i => h11 _
      · exact absurd hp (List.not_mem_nil)
  unfold val_main_v31 val_main_v26 val_main_v30
  refine AllReal.concatenate _ _ _ fun p hp => ?_
  rcases List.mem_cons.1 hp with rfl | hp
  · exact fun i => AllReal.broadcastInDim (φ := .f32) _ Gen.bcast_S2_S1x2_1 h25 i
  · rcases List.mem_cons.1 hp with rfl | hp
    · exact fun i => AllReal.broadcastInDim (φ := .f32) _ Gen.bcast_S2_S1x2_1 h29 i
    · exact absurd hp (List.not_mem_nil)

/-- The determinant a·d − b·c. -/
theorem real_v20 (h7 : AllReal (φ := .f32) (val_main_v7 (F := Ideal) x1 x3 x4 x5)) : AllReal (φ := .f32) (val_main_v20 (F := Ideal) x1 x3 x4 x5) := by
  unfold val_main_v20 val_main_v18 val_main_v19
  exact AllReal.subf (AllReal.mulf (real_v11 x1 x3 x4 x5 h7) (real_v17 x1 x3 x4 x5 h7))
    (AllReal.mulf (real_v13 x1 x3 x4 x5 h7) (real_v15 x1 x3 x4 x5 h7))

/-- The gain: every entry real, given real arguments and a determinant that is not zero. -/
theorem real_gain (h1 : AllReal x1) (h3 : AllReal x3) (h4 : AllReal x4) (h5 : AllReal x5)
    (hdet : val_main_v20 (F := Ideal) x1 x3 x4 x5 ix0 ≠ 0) : AllReal (φ := .f32) (val_main_v34 (F := Ideal) x1 x3 x4 x5) := by
  have h7 := real_v7 x1 x3 x4 x5 h1 h3 h4 h5
  have h33 : AllReal (φ := .f32) (val_main_v33 (F := Ideal) x1 x3 x4 x5) := by
    unfold val_main_v33
    refine AllReal.hostDivf (real_v31 x1 x3 x4 x5 h7) ?_ ?_
    · unfold val_main_v32; exact AllReal.broadcastInDim _ _ (real_v20 x1 x3 x4 x5 h7)
    · intro i
      rw [val_main_v32_apply, eq_ix0 (idx_main_v32 i)]
      exact hdet
  unfold val_main_v34 val_main_v9 val_main_v8
  exact AllReal.dotGeneral _ _ (AllReal.dotGeneral _ _ (real_v3 x3 x4 h3 h4) (AllReal.transpose _ _ h5)) h33

/-! ## The two wide results -/

/-- The three matrix products over the batch, read at an entry: each record is the plain rows-by-columns product. -/
theorem dot_44B (A : FVec Ideal S4x4 .f32) (X : FVec Ideal S4x4194304 .f32) (a : Fin 4) (b : Fin 4194304) :
    Host.dotGeneral dot_S4x4_S4x4194304_S4x4194304_1_0_0_1_n_n none A X (ix2 a b) = ∑ c : Fin 4, A (ix2 a c) * X (ix2 c b) :=
  StackMember.dotGeneral_plain_apply none A X a b
theorem dot_24B (A : FVec Ideal S2x4 .f32) (X : FVec Ideal S4x4194304 .f32) (r : Fin 2) (b : Fin 4194304) :
    Host.dotGeneral dot_S2x4_S4x4194304_S2x4194304_1_0_0_1_n_n none A X (ix2 r b) = ∑ c : Fin 4, A (ix2 r c) * X (ix2 c b) :=
  StackMember.dotGeneral_plain_apply none A X r b
theorem dot_42B (A : FVec Ideal S4x2 .f32) (X : FVec Ideal S2x4194304 .f32) (a : Fin 4) (b : Fin 4194304) :
    Host.dotGeneral dot_S4x2_S2x4194304_S4x4194304_1_0_0_1_n_n none A X (ix2 a b) = ∑ k : Fin 2, A (ix2 a k) * X (ix2 k b) :=
  StackMember.dotGeneral_plain_apply none A X a b

/-- The reference's state result is the prediction corrected by the gain applied to the innovation. -/
theorem state_eq : val_main_v38 (F := Ideal) x0 x1 x2 x3 x4 x5
    = Cert.Kalman.gUpd (val_main_v34 (F := Ideal) x1 x3 x4 x5) x4 x5 x0 x2 := by
  funext i
  obtain ⟨a, b, rfl⟩ : ∃ (a : Fin 4) (b : Fin 4194304), i = ix2 a b := ⟨i 0, i 1, eq_ix2 i⟩
  unfold val_main_v38 val_main_v37 val_main_v36 val_main_v35 val_main_v0
  generalize val_main_v34 (F := Ideal) x1 x3 x4 x5 = K
  show Host.dotGeneral dot_S4x4_S4x4194304_S4x4194304_1_0_0_1_n_n none x4 x2 (ix2 a b)
      + Host.dotGeneral dot_S4x2_S2x4194304_S4x4194304_1_0_0_1_n_n none K
          (subf x0 (Host.dotGeneral dot_S2x4_S4x4194304_S2x4194304_1_0_0_1_n_n none x5
            (Host.dotGeneral dot_S4x4_S4x4194304_S4x4194304_1_0_0_1_n_n none x4 x2))) (ix2 a b) = _
  rw [dot_44B, dot_42B]
  show _ + ∑ k : Fin 2, K (ix2 a k) * (x0 (ix2 k b) - Host.dotGeneral dot_S2x4_S4x4194304_S2x4194304_1_0_0_1_n_n none x5
            (Host.dotGeneral dot_S4x4_S4x4194304_S4x4194304_1_0_0_1_n_n none x4 x2) (ix2 k b)) = _
  simp only [dot_24B, dot_44B]
  rfl

/-- The reference's observation result is Ψ applied to its state result. -/
theorem obs_eq : val_main_v42 (F := Ideal) x0 x1 x2 x3 x4 x5
    = Cert.Kalman.zUpd (val_main_v34 (F := Ideal) x1 x3 x4 x5) x4 x5 x0 x2 := by
  funext i
  obtain ⟨r, b, rfl⟩ : ∃ (r : Fin 2) (b : Fin 4194304), i = ix2 r b := ⟨i 0, i 1, eq_ix2 i⟩
  unfold val_main_v42
  rw [state_eq]
  exact dot_24B x5 _ r b

end Cert.RefSide

end
-- ==== Proof.KernelBlocks.lean ====
/-
  From blocks to arrays: what the batched Kalman update's one region leaves in its two result arrays.

  Notation: B = 4194304 columns, cut into 32 blocks of 131072 columns, one per grid point; each block is handled as four
  chunks of 32768 columns. The region's windows hold four coefficient matrices — Wg (4×4), Wz (4×2), Cg (2×4), Cz (2×2),
  each one whole block, the same at every point — and the two wide arrays z (2×B) and g (4×B), whose block at point t is
  the columns [131072 t, 131072 (t + 1)).

  * For one chunk, with state rows gc and observation rows zc, every product is taken into a zero accumulator, so the two
    stored values are, entry by entry,
      Σ_c Wg(a, c)·gc(c, q) + Σ_k Wz(a, k)·zc(k, q)      and      Σ_c Cg(r, c)·gc(c, q) + Σ_k Cz(r, k)·zc(k, q).
  * Chunk j of a block is the columns [32768 j, 32768 (j + 1)) of the block, for both inputs and both results alike; the
    four stores into each result block are therefore the four chunks of ONE function of the block's index, and they
    cover the block.
  * Column y of block t is column 131072 t + y of the array, so what point t writes back is block t of the folded form
    (Spec.lean's gOut, zOut) of the arrays; the point that covers column b is b / 131072, and every point writes back.
  Hence each result array, after the run, is the folded form applied to the arrays the region finds in its six input
  windows (final6, final7).
-/
import proofs.«178990_j592705487346_2_alg».proof.Proof.Gen.KernelIdeal.Value
import proofs.«178990_j592705487346_2_alg».proof.Proof.Spec
import Idealize.ShloMosaic.Lib.StackMember
import Idealize.ShloMosaic.Lib.KernelVsHost

noncomputable section

open scoped BigOperators

namespace Cert.KernelIdeal.Blocks

open Cert.KernelIdeal Cert.KernelIdeal.Gen Idealize.ShloMosaic Idealize.ShloMosaic.ValueIdx Idealize.SL.Sem
open Idealize.ShloMosaic.Pipeline (Dat)

/-! ## The four small products at an entry

Each product of the body multiplies a coefficient matrix by a chunk of 32768 columns into a zero accumulator, so its
entry (a, q) is row a of the matrix against column q of the chunk. -/

/-- A 4×4 matrix against the four state rows of a chunk. -/
theorem dot44 (W : FVec Ideal S4x4 .f32) (gc : FVec Ideal S4x32768 .f32) (a : Fin 4) (q : Fin 32768) :
    matmul dot_S4x4_S4x32768_S4x32768_1_0_0_1_n_n none W gc (constant (F := Ideal) S4x32768 .f32 0x00000000#32) (ix2 a q)
      = ∑ c : Fin 4, W (ix2 a c) * gc (ix2 c q) := by
  rw [matmul_zero_eq_dotGeneral]
  exact StackMember.dotGeneral_plain_apply (m := 4) (n := 32768) (k := 4) none W gc a q

/-- A 4×2 matrix against the two observation rows of a chunk. -/
theorem dot42 (Z : FVec Ideal S4x2 .f32) (zc : FVec Ideal S2x32768 .f32) (a : Fin 4) (q : Fin 32768) :
    matmul dot_S4x2_S2x32768_S4x32768_1_0_0_1_n_n none Z zc (constant (F := Ideal) S4x32768 .f32 0x00000000#32) (ix2 a q)
      = ∑ k : Fin 2, Z (ix2 a k) * zc (ix2 k q) := by
  rw [matmul_zero_eq_dotGeneral]
  exact StackMember.dotGeneral_plain_apply (m := 4) (n := 32768) (k := 2) none Z zc a q

/-- A 2×4 matrix against the four state rows of a chunk. -/
theorem dot24 (C : FVec Ideal S2x4 .f32) (gc : FVec Ideal S4x32768 .f32) (r : Fin 2) (q : Fin 32768) :
    matmul dot_S2x4_S4x32768_S2x32768_1_0_0_1_n_n none C gc (constant (F := Ideal) S2x32768 .f32 0x00000000#32) (ix2 r q)
      = ∑ c : Fin 4, C (ix2 r c) * gc (ix2 c q) := by
  rw [matmul_zero_eq_dotGeneral]
  exact StackMember.dotGeneral_plain_apply (m := 2) (n := 32768) (k := 4) none C gc r q

/-- A 2×2 matrix against the two observation rows of a chunk. -/
theorem dot22 (D : FVec Ideal S2x2 .f32) (zc : FVec Ideal S2x32768 .f32) (r : Fin 2) (q : Fin 32768) :
    matmul dot_S2x2_S2x32768_S2x32768_1_0_0_1_n_n none D zc (constant (F := Ideal) S2x32768 .f32 0x00000000#32) (ix2 r q)
      = ∑ k : Fin 2, D (ix2 r k) * zc (ix2 k q) := by
  rw [matmul_zero_eq_dotGeneral]
  exact StackMember.dotGeneral_plain_apply (m := 2) (n := 32768) (k := 2) none D zc r q

/-! ## One chunk's two results

For one chunk of columns, with state rows gc and observation rows zc: the state result's entry (a, q) is
Σ_c W(a, c)·gc(c, q) + Σ_k Z(a, k)·zc(k, q) and the observation result's entry (r, q) is
Σ_c C(r, c)·gc(c, q) + Σ_k D(r, k)·zc(k, q). -/

/-- The state result of a chunk. -/
def gChunk (W : Vec Ideal S4x4 .f32) (Z : Vec Ideal S4x2 .f32) (gc : Vec Ideal S4x32768 .f32) (zc : Vec Ideal S2x32768 .f32) :
    Vec Ideal S4x32768 .f32 :=
  fun i => (∑ c : Fin 4, W (ix2 (n0 := 4) (n1 := 4) (i 0) c) * gc (ix2 (n0 := 4) (n1 := 32768) c (i 1)))
    + ∑ k : Fin 2, Z (ix2 (n0 := 4) (n1 := 2) (i 0) k) * zc (ix2 (n0 := 2) (n1 := 32768) k (i 1))

/-- The observation result of a chunk. -/
def zChunk (C : Vec Ideal S2x4 .f32) (D : Vec Ideal S2x2 .f32) (gc : Vec Ideal S4x32768 .f32) (zc : Vec Ideal S2x32768 .f32) :
    Vec Ideal S2x32768 .f32 :=
  fun i => (∑ c : Fin 4, C (ix2 (n0 := 2) (n1 := 4) (i 0) c) * gc (ix2 (n0 := 4) (n1 := 32768) c (i 1)))
    + ∑ k : Fin 2, D (ix2 (n0 := 2) (n1 := 2) (i 0) k) * zc (ix2 (n0 := 2) (n1 := 32768) k (i 1))

/-- The coefficient matrices are cast to their own shapes before use: the casts change nothing. -/
theorem pay2_eq (W : Vec Ideal S4x4 .f32) : k0_pay2 W = W := shapeCast_self _ _
theorem pay3_eq (Z : Vec Ideal S4x2 .f32) : k0_pay3 Z = Z := shapeCast_self _ _
theorem pay4_eq (C : Vec Ideal S2x4 .f32) : k0_pay4 C = C := shapeCast_self _ _
theorem pay5_eq (D : Vec Ideal S2x2 .f32) : k0_pay5 D = D := shapeCast_self _ _

/-- The sum of the two state products is the chunk's state result. -/
theorem addf_dots_g (W : FVec Ideal S4x4 .f32) (Z : FVec Ideal S4x2 .f32) (gc : FVec Ideal S4x32768 .f32) (zc : FVec Ideal S2x32768 .f32) :
    addf (matmul dot_S4x4_S4x32768_S4x32768_1_0_0_1_n_n none W gc (constant (F := Ideal) S4x32768 .f32 0x00000000#32))
        (matmul dot_S4x2_S2x32768_S4x32768_1_0_0_1_n_n none Z zc (constant (F := Ideal) S4x32768 .f32 0x00000000#32))
      = gChunk W Z gc zc := by
  funext i
  obtain ⟨a, q, rfl⟩ : ∃ (a : Fin 4) (q : Fin 32768), i = ix2 a q := ⟨i 0, i 1, eq_ix2 i⟩
  refine (addf_apply _ _ _).trans ?_
  rw [dot44, dot42]
  rfl

/-- The sum of the two observation products is the chunk's observation result. -/
theorem addf_dots_z (C : FVec Ideal S2x4 .f32) (D : FVec Ideal S2x2 .f32) (gc : FVec Ideal S4x32768 .f32) (zc : FVec Ideal S2x32768 .f32) :
    addf (matmul dot_S2x4_S4x32768_S2x32768_1_0_0_1_n_n none C gc (constant (F := Ideal) S2x32768 .f32 0x00000000#32))
        (matmul dot_S2x2_S2x32768_S2x32768_1_0_0_1_n_n none D zc (constant (F := Ideal) S2x32768 .f32 0x00000000#32))
      = zChunk C D gc zc := by
  funext i
  obtain ⟨r, q, rfl⟩ : ∃ (r : Fin 2) (q : Fin 32768), i = ix2 r q := ⟨i 0, i 1, eq_ix2 i⟩
  refine (addf_apply _ _ _).trans ?_
  rw [dot24, dot22]
  rfl

/-- Each of the body's eight stored values is its chunk's state or observation result. -/
theorem pay6_eq (W : Vec Ideal S4x4 .f32) (Z : Vec Ideal S4x2 .f32) (gc : Vec Ideal S4x32768 .f32) (zc : Vec Ideal S2x32768 .f32) :
    k0_pay6 W Z gc zc = gChunk W Z gc zc := by
  unfold k0_pay6; dsimp only; rw [pay2_eq, pay3_eq]; exact addf_dots_g W Z gc zc
theorem pay8_eq (W : Vec Ideal S4x4 .f32) (Z : Vec Ideal S4x2 .f32) (gc : Vec Ideal S4x32768 .f32) (zc : Vec Ideal S2x32768 .f32) :
    k0_pay8 W Z gc zc = gChunk W Z gc zc := by
  unfold k0_pay8; dsimp only; rw [pay2_eq, pay3_eq]; exact addf_dots_g W Z gc zc
theorem pay10_eq (W : Vec Ideal S4x4 .f32) (Z : Vec Ideal S4x2 .f32) (gc : Vec Ideal S4x32768 .f32) (zc : Vec Ideal S2x32768 .f32) :
    k0_pay10 (k0_pay2 W) (k0_pay3 Z) gc zc = gChunk W Z gc zc := by
  unfold k0_pay10; dsimp only; rw [pay2_eq, pay3_eq]; exact addf_dots_g W Z gc zc
theorem pay12_eq (W : Vec Ideal S4x4 .f32) (Z : Vec Ideal S4x2 .f32) (gc : Vec Ideal S4x32768 .f32) (zc : Vec Ideal S2x32768 .f32) :
    k0_pay12 (k0_pay2 W) (k0_pay3 Z) gc zc = gChunk W Z gc zc := by
  unfold k0_pay12; dsimp only; rw [pay2_eq, pay3_eq]; exact addf_dots_g W Z gc zc
theorem pay7_eq (C : Vec Ideal S2x4 .f32) (D : Vec Ideal S2x2 .f32) (gc : Vec Ideal S4x32768 .f32) (zc : Vec Ideal S2x32768 .f32) :
    k0_pay7 C D gc zc = zChunk C D gc zc := by
  unfold k0_pay7; dsimp only; rw [pay4_eq, pay5_eq]; exact addf_dots_z C D gc zc
theorem pay9_eq (C : Vec Ideal S2x4 .f32) (D : Vec Ideal S2x2 .f32) (gc : Vec Ideal S4x32768 .f32) (zc : Vec Ideal S2x32768 .f32) :
    k0_pay9 (k0_pay4 C) (k0_pay5 D) gc zc = zChunk C D gc zc := by
  unfold k0_pay9; dsimp only; rw [pay4_eq, pay5_eq]; exact addf_dots_z C D gc zc
theorem pay11_eq (C : Vec Ideal S2x4 .f32) (D : Vec Ideal S2x2 .f32) (gc : Vec Ideal S4x32768 .f32) (zc : Vec Ideal S2x32768 .f32) :
    k0_pay11 (k0_pay4 C) (k0_pay5 D) gc zc = zChunk C D gc zc := by
  unfold k0_pay11; dsimp only; rw [pay4_eq, pay5_eq]; exact addf_dots_z C D gc zc
theorem pay1_eq (C : Vec Ideal S2x4 .f32) (D : Vec Ideal S2x2 .f32) (gc : Vec Ideal S4x32768 .f32) (zc : Vec Ideal S2x32768 .f32) :
    k0_pay1 (k0_pay13 (k0_pay4 C) gc) (k0_pay14 (k0_pay5 D) zc) = zChunk C D gc zc := by
  unfold k0_pay1 k0_pay13 k0_pay14; dsimp only; rw [pay4_eq, pay5_eq]; exact addf_dots_z C D gc zc

/-! ## One block's two results

A block is 131072 columns; the body handles it as four chunks of 32768 columns, chunk j being the columns
[32768 j, 32768 (j + 1)) of the block, of the state block gb, of the observation block zb and of both results alike.
The state result's entry (a, y) is Σ_c W(a, c)·gb(c, y) + Σ_k Z(a, k)·zb(k, y); the observation result's entry (r, y) is
Σ_c C(r, c)·gb(c, y) + Σ_k D(r, k)·zb(k, y). -/

/-- The state result of a block. -/
def gBlock (W : Vec Ideal S4x4 .f32) (Z : Vec Ideal S4x2 .f32) (zb : Vec Ideal S2x131072 .f32) (gb : Vec Ideal S4x131072 .f32) :
    Vec Ideal S4x131072 .f32 :=
  fun y => (∑ c : Fin 4, W (ix2 (n0 := 4) (n1 := 4) (y 0) c) * gb (ix2 (n0 := 4) (n1 := 131072) c (y 1)))
    + ∑ k : Fin 2, Z (ix2 (n0 := 4) (n1 := 2) (y 0) k) * zb (ix2 (n0 := 2) (n1 := 131072) k (y 1))

/-- The observation result of a block. -/
def zBlock (C : Vec Ideal S2x4 .f32) (D : Vec Ideal S2x2 .f32) (zb : Vec Ideal S2x131072 .f32) (gb : Vec Ideal S4x131072 .f32) :
    Vec Ideal S2x131072 .f32 :=
  fun y => (∑ c : Fin 4, C (ix2 (n0 := 2) (n1 := 4) (y 0) c) * gb (ix2 (n0 := 4) (n1 := 131072) c (y 1)))
    + ∑ k : Fin 2, D (ix2 (n0 := 2) (n1 := 2) (y 0) k) * zb (ix2 (n0 := 2) (n1 := 131072) k (y 1))

/-- Entry (a, q) of the columns from o on, of a block of R rows, is the block's entry (a, o + q). -/
theorem emb_cols {R : Nat} (o : Nat) (ho : o + 32768 ≤ 131072)
    (inb : ∀ a, (![0, o] : Fin 2 → Nat) a + (![R, 32768] : Fin 2 → Nat) a ≤ (⟨2, ![R, 131072]⟩ : Shape).size a)
    (a : Fin R) (q : Fin 32768) :
    (Rect.unit (s := ⟨2, ![R, 131072]⟩) ![0, o] ![R, 32768] inb).emb (ix2 a q)
      = ix2 a (⟨o + q.val, by have := q.isLt; omega⟩ : Fin 131072) := by
  funext d
  apply Fin.ext
  match d with
  | ⟨0, _⟩ => show 0 + 1 * a.val = a.val; omega
  | ⟨1, _⟩ => show o + 1 * q.val = o + q.val; omega

/-- The state result of the chunk that starts at column o of the block is the block's state result at those columns. -/
theorem gPiece (W : Vec Ideal S4x4 .f32) (Z : Vec Ideal S4x2 .f32) (zb : Vec Ideal S2x131072 .f32) (gb : Vec Ideal S4x131072 .f32)
    (o : Nat) (ho : o + 32768 ≤ 131072)
    (inb5 : ∀ a, (![0, o] : Fin 2 → Nat) a + (![4, 32768] : Fin 2 → Nat) a ≤ S4x131072.size a)
    (inb4 : ∀ a, (![0, o] : Fin 2 → Nat) a + (![2, 32768] : Fin 2 → Nat) a ≤ S2x131072.size a)
    (x : (⟨2, ![4, 32768]⟩ : Shape).Idx) :
    gChunk W Z (View.ld gb (Rect.unit (s := S4x131072) ![0, o] ![4, 32768] inb5))
        (View.ld zb (Rect.unit (s := S2x131072) ![0, o] ![2, 32768] inb4)) x
      = gBlock W Z zb gb ((Rect.unit (s := S4x131072) ![0, o] ![4, 32768] inb5).emb x) := by
  obtain ⟨a, q, rfl⟩ : ∃ (a : Fin 4) (q : Fin 32768), x = ix2 a q := ⟨x 0, x 1, eq_ix2 x⟩
  rw [emb_cols (R := 4) o ho inb5 a q]
  show (∑ c : Fin 4, W (ix2 a c) * gb ((Rect.unit (s := S4x131072) ![0, o] ![4, 32768] inb5).emb (ix2 c q)))
      + ∑ k : Fin 2, Z (ix2 a k) * zb ((Rect.unit (s := S2x131072) ![0, o] ![2, 32768] inb4).emb (ix2 k q)) = _
  simp only [emb_cols (R := 4) o ho inb5, emb_cols (R := 2) o ho inb4]
  rfl

/-- The observation result of the chunk that starts at column o of the block is the block's observation result at those
    columns. -/
theorem zPiece (C : Vec Ideal S2x4 .f32) (D : Vec Ideal S2x2 .f32) (zb : Vec Ideal S2x131072 .f32) (gb : Vec Ideal S4x131072 .f32)
    (o : Nat) (ho : o + 32768 ≤ 131072)
    (inb5 : ∀ a, (![0, o] : Fin 2 → Nat) a + (![4, 32768] : Fin 2 → Nat) a ≤ S4x131072.size a)
    (inb4 : ∀ a, (![0, o] : Fin 2 → Nat) a + (![2, 32768] : Fin 2 → Nat) a ≤ S2x131072.size a)
    (x : (⟨2, ![2, 32768]⟩ : Shape).Idx) :
    zChunk C D (View.ld gb (Rect.unit (s := S4x131072) ![0, o] ![4, 32768] inb5))
        (View.ld zb (Rect.unit (s := S2x131072) ![0, o] ![2, 32768] inb4)) x
      = zBlock C D zb gb ((Rect.unit (s := S2x131072) ![0, o] ![2, 32768] inb4).emb x) := by
  obtain ⟨r, q, rfl⟩ : ∃ (r : Fin 2) (q : Fin 32768), x = ix2 r q := ⟨x 0, x 1, eq_ix2 x⟩
  rw [emb_cols (R := 2) o ho inb4 r q]
  show (∑ c : Fin 4, C (ix2 r c) * gb ((Rect.unit (s := S4x131072) ![0, o] ![4, 32768] inb5).emb (ix2 c q)))
      + ∑ k : Fin 2, D (ix2 r k) * zb ((Rect.unit (s := S2x131072) ![0, o] ![2, 32768] inb4).emb (ix2 k q)) = _
  simp only [emb_cols (R := 4) o ho inb5, emb_cols (R := 2) o ho inb4]
  rfl

/-! ## What the body leaves in the two result blocks

The body's four stores into each result block are the four chunks of one function of the block's index — the block's
state, respectively observation, result of the six input blocks —, and together they cover the block. -/

theorem hz : (![0, 0] : Fin 2 → Nat) = fun _ => 0 := funext fun a => by fin_cases a <;> rfl

set_option maxRecDepth 16384 in
/-- The state result block after the body. -/
theorem out6_eq (c : Dev nD) (i : grid0.Coords) (arg1 : Memref sig .tc .vmem S4x4 .f32) (harg1 : arg1.IsWhole) (arg2 : Memref sig .tc .vmem S4x2 .f32) (harg2 : arg2.IsWhole) (arg3 : Memref sig .tc .vmem S2x4 .f32) (harg3 : arg3.IsWhole) (arg4 : Memref sig .tc .vmem S2x2 .f32) (harg4 : arg4.IsWhole) (arg5 : Memref sig .tc .vmem S2x131072 .f32) (harg5 : arg5.IsWhole) (arg6 : Memref sig .tc .vmem S4x131072 .f32) (harg6 : arg6.IsWhole) (arg7 : Memref sig .tc .vmem S4x131072 .f32) (harg7 : arg7.IsWhole) (arg8 : Memref sig .tc .vmem S2x131072 .f32) (harg8 : arg8.IsWhole)
    (x0 : Vec Ideal S4x4 .f32) (x1 : Vec Ideal S4x2 .f32) (x2 : Vec Ideal S2x4 .f32) (x3 : Vec Ideal S2x2 .f32) (x4 : Vec Ideal S2x131072 .f32) (x5 : Vec Ideal S4x131072 .f32) :
    out0_A_6 (F := Ideal) c i arg1 harg1 arg2 harg2 arg3 harg3 arg4 harg4 arg5 harg5 arg6 harg6 arg7 harg7 arg8 harg8 x0 x1 x2 x3 x4 x5
      = gBlock x0 x1 x4 x5 := by
  unfold out0_A_6
  rw [View.read_writes_junk_eq_canon]
  funext y
  refine View.canon_apply_of_pieces (gBlock x0 x1 x4 x5) _ ?_ y
    (cover0_A_6 c i arg1 harg1 arg2 harg2 arg3 harg3 arg4 harg4 arg5 harg5 arg6 harg6 arg7 harg7 arg8 harg8 x0 x1 x2 x3 x4 x5 y)
  unfold kernelRun0_A
  dsimp only
  sl_unfold_words
  simp only [View.readAt_eq_ld, harg1.read_unread, harg2.read_unread, harg5.read_unread, harg6.read_unread,
    View.ld_unit_zero (S := S4x4) hz, View.ld_unit_zero (S := S4x2) hz, pay6_eq, pay8_eq, pay10_eq, pay12_eq]
  intro p hp
  simp only [List.mem_cons, List.mem_nil_iff, or_false] at hp
  rcases hp with rfl | rfl | rfl | rfl
  · exact gPiece x0 x1 x4 x5 98304 (by omega) _ _
  · exact gPiece x0 x1 x4 x5 65536 (by omega) _ _
  · exact gPiece x0 x1 x4 x5 32768 (by omega) _ _
  · exact gPiece x0 x1 x4 x5 0 (by omega) _ _

set_option maxRecDepth 16384 in
/-- The observation result block after the body. -/
theorem out7_eq (c : Dev nD) (i : grid0.Coords) (arg1 : Memref sig .tc .vmem S4x4 .f32) (harg1 : arg1.IsWhole) (arg2 : Memref sig .tc .vmem S4x2 .f32) (harg2 : arg2.IsWhole) (arg3 : Memref sig .tc .vmem S2x4 .f32) (harg3 : arg3.IsWhole) (arg4 : Memref sig .tc .vmem S2x2 .f32) (harg4 : arg4.IsWhole) (arg5 : Memref sig .tc .vmem S2x131072 .f32) (harg5 : arg5.IsWhole) (arg6 : Memref sig .tc .vmem S4x131072 .f32) (harg6 : arg6.IsWhole) (arg7 : Memref sig .tc .vmem S4x131072 .f32) (harg7 : arg7.IsWhole) (arg8 : Memref sig .tc .vmem S2x131072 .f32) (harg8 : arg8.IsWhole)
    (x0 : Vec Ideal S4x4 .f32) (x1 : Vec Ideal S4x2 .f32) (x2 : Vec Ideal S2x4 .f32) (x3 : Vec Ideal S2x2 .f32) (x4 : Vec Ideal S2x131072 .f32) (x5 : Vec Ideal S4x131072 .f32) :
    out0_A_7 (F := Ideal) c i arg1 harg1 arg2 harg2 arg3 harg3 arg4 harg4 arg5 harg5 arg6 harg6 arg7 harg7 arg8 harg8 x0 x1 x2 x3 x4 x5
      = zBlock x2 x3 x4 x5 := by
  unfold out0_A_7
  rw [View.read_writes_junk_eq_canon]
  funext y
  refine View.canon_apply_of_pieces (zBlock x2 x3 x4 x5) _ ?_ y
    (cover0_A_7 c i arg1 harg1 arg2 harg2 arg3 harg3 arg4 harg4 arg5 harg5 arg6 harg6 arg7 harg7 arg8 harg8 x0 x1 x2 x3 x4 x5 y)
  unfold kernelRun0_A
  dsimp only
  sl_unfold_words
  simp only [View.readAt_eq_ld, harg3.read_unread, harg4.read_unread, harg5.read_unread, harg6.read_unread,
    View.ld_unit_zero (S := S2x4) hz, View.ld_unit_zero (S := S2x2) hz, pay7_eq, pay9_eq, pay11_eq, pay1_eq]
  intro p hp
  simp only [List.mem_cons, List.mem_nil_iff, or_false] at hp
  rcases hp with rfl | rfl | rfl | rfl
  · exact zPiece x2 x3 x4 x5 98304 (by omega) _ _
  · exact zPiece x2 x3 x4 x5 65536 (by omega) _ _
  · exact zPiece x2 x3 x4 x5 32768 (by omega) _ _
  · exact zPiece x2 x3 x4 x5 0 (by omega) _ _

/-! ## The windows' index maps over the grid

The four coefficient windows stay at block (0, 0); the four wide windows are at block (0, t) at point t. -/

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-! ## A block's results are the arrays' results at the block's columns

At point t the wide blocks are the columns [131072 t, 131072 (t + 1)) of their arrays and the coefficient blocks are the
whole coefficient arrays; so the block's state (observation) result at (a, y) is the arrays' folded result at
(a, 131072 t + y). -/

/-- Column y of block t is a column of the array. -/
theorem col_lt {tv : Nat} (ht : tv < 32) (q : Fin 131072) : 131072 * tv + q.val < 4194304 := by
  have := q.isLt; omega

theorem gBlock_read (Wg : S4x4.Idx → EReal) (Wz : S4x2.Idx → EReal) (z : S2x4194304.Idx → EReal) (g : S4x4194304.Idx → EReal)
    (b0 : Vec Ideal S4x4 .f32) (b1 : Vec Ideal S4x2 .f32) (b4 : Vec Ideal S2x131072 .f32) (b5 : Vec Ideal S4x131072 .f32)
    (tv : Nat) (ht : tv < 32)
    (h0 : ∀ (a : Fin 4) (c : Fin 4), b0 (ix2 a c) = Wg (ix2 a c))
    (h1 : ∀ (a : Fin 4) (k : Fin 2), b1 (ix2 a k) = Wz (ix2 a k))
    (h4 : ∀ (k : Fin 2) (q : Fin 131072), b4 (ix2 k q) = z (ix2 k (⟨131072 * tv + q.val, col_lt ht q⟩ : Fin 4194304)))
    (h5 : ∀ (c : Fin 4) (q : Fin 131072), b5 (ix2 c q) = g (ix2 c (⟨131072 * tv + q.val, col_lt ht q⟩ : Fin 4194304)))
    (j : S4x131072.Idx) (i : S4x4194304.Idx) (hi0 : (i 0).val = (j 0).val) (hi1 : (i 1).val = 131072 * tv + (j 1).val) :
    gBlock b0 b1 b4 b5 j = Cert.Kalman.gOut Wg Wz z g i := by
  obtain ⟨a, q, rfl⟩ : ∃ (a : Fin 4) (q : Fin 131072), j = ix2 a q := ⟨j 0, j 1, eq_ix2 j⟩
  obtain rfl : i = ix2 a (⟨131072 * tv + q.val, col_lt ht q⟩ : Fin 4194304) := by
    funext d; apply Fin.ext
    match d with
    | ⟨0, _⟩ => exact hi0
    | ⟨1, _⟩ => exact hi1
  show (∑ c : Fin 4, b0 (ix2 a c) * b5 (ix2 c q)) + ∑ k : Fin 2, b1 (ix2 a k) * b4 (ix2 k q) = _
  simp only [h0, h1, h4, h5]
  rfl

theorem zBlock_read (Cg : S2x4.Idx → EReal) (Cz : S2x2.Idx → EReal) (z : S2x4194304.Idx → EReal) (g : S4x4194304.Idx → EReal)
    (b2 : Vec Ideal S2x4 .f32) (b3 : Vec Ideal S2x2 .f32) (b4 : Vec Ideal S2x131072 .f32) (b5 : Vec Ideal S4x131072 .f32)
    (tv : Nat) (ht : tv < 32)
    (h2 : ∀ (r : Fin 2) (c : Fin 4), b2 (ix2 r c) = Cg (ix2 r c))
    (h3 : ∀ (r : Fin 2) (k : Fin 2), b3 (ix2 r k) = Cz (ix2 r k))
    (h4 : ∀ (k : Fin 2) (q : Fin 131072), b4 (ix2 k q) = z (ix2 k (⟨131072 * tv + q.val, col_lt ht q⟩ : Fin 4194304)))
    (h5 : ∀ (c : Fin 4) (q : Fin 131072), b5 (ix2 c q) = g (ix2 c (⟨131072 * tv + q.val, col_lt ht q⟩ : Fin 4194304)))
    (j : S2x131072.Idx) (i : S2x4194304.Idx) (hi0 : (i 0).val = (j 0).val) (hi1 : (i 1).val = 131072 * tv + (j 1).val) :
    zBlock b2 b3 b4 b5 j = Cert.Kalman.zOut Cg Cz z g i := by
  obtain ⟨r, q, rfl⟩ : ∃ (r : Fin 2) (q : Fin 131072), j = ix2 r q := ⟨j 0, j 1, eq_ix2 j⟩
  obtain rfl : i = ix2 r (⟨131072 * tv + q.val, col_lt ht q⟩ : Fin 4194304) := by
    funext d; apply Fin.ext
    match d with
    | ⟨0, _⟩ => exact hi0
    | ⟨1, _⟩ => exact hi1
  show (∑ c : Fin 4, b2 (ix2 r c) * b5 (ix2 c q)) + ∑ k : Fin 2, b3 (ix2 r k) * b4 (ix2 k q) = _
  simp only [h2, h3, h4, h5]
  rfl

/-! ## What a point writes back -/

variable (m : (ℓ : Loc nD τ sig) → Buf (Elt Ideal) ℓ)

/-- The grid has 32 points. -/
theorem t_lt (t : Fin cfg0.N) : t.val < 32 :=
  Nat.lt_of_lt_of_eq t.isLt N_0

/-- Window 0's block at any point is the whole 4×4 array it stages. -/
theorem blk0_apply (c : Dev nD) (t : Fin cfg0.N) (a : Fin 4) (b : Fin 4) :
    iblk m c 0 t (ix2 a b) = (V m c main_v45 : S4x4.Idx → EReal) (ix2 a b) := by
  obtain ⟨e0, e1, -⟩ := idx_facts t
  show (V m c main_v45 : S4x4.Idx → EReal) (((cfg0.win 0).blk t).view.emb (ix2 a b)) = _
  refine congrArg (V m c main_v45 : S4x4.Idx → EReal) (funext fun d => Fin.ext ?_)
  match d with
  | ⟨0, _⟩ => show win0_0.index t (0 : Fin 2) * 4 + 1 * a.val = a.val; rw [e0]; omega
  | ⟨1, _⟩ => show win0_0.index t (1 : Fin 2) * 4 + 1 * b.val = b.val; rw [e1]; omega

/-- Window 1's block at any point is the whole 4×2 array it stages. -/
theorem blk1_apply (c : Dev nD) (t : Fin cfg0.N) (a : Fin 4) (b : Fin 2) :
    iblk m c 1 t (ix2 a b) = (V m c main_v33 : S4x2.Idx → EReal) (ix2 a b) := by
  obtain ⟨-, -, e0, e1, -⟩ := idx_facts t
  show (V m c main_v33 : S4x2.Idx → EReal) (((cfg0.win 1).blk t).view.emb (ix2 a b)) = _
  refine congrArg (V m c main_v33 : S4x2.Idx → EReal) (funext fun d => Fin.ext ?_)
  match d with
  | ⟨0, _⟩ => show win0_1.index t (0 : Fin 2) * 4 + 1 * a.val = a.val; rw [e0]; omega
  | ⟨1, _⟩ => show win0_1.index t (1 : Fin 2) * 2 + 1 * b.val = b.val; rw [e1]; omega

/-- Window 2's block at any point is the whole 2×4 array it stages. -/
theorem blk2_apply (c : Dev nD) (t : Fin cfg0.N) (a : Fin 2) (b : Fin 4) :
    iblk m c 2 t (ix2 a b) = (V m c main_v46 : S2x4.Idx → EReal) (ix2 a b) := by
  obtain ⟨-, -, -, -, e0, e1, -⟩ := idx_facts t
  show (V m c main_v46 : S2x4.Idx → EReal) (((cfg0.win 2).blk t).view.emb (ix2 a b)) = _
  refine congrArg (V m c main_v46 : S2x4.Idx → EReal) (funext fun d => Fin.ext ?_)
  match d with
  | ⟨0, _⟩ => show win0_2.index t (0 : Fin 2) * 2 + 1 * a.val = a.val; rw [e0]; omega
  | ⟨1, _⟩ => show win0_2.index t (1 : Fin 2) * 4 + 1 * b.val = b.val; rw [e1]; omega

/-- Window 3's block at any point is the whole 2×2 array it stages. -/
theorem blk3_apply (c : Dev nD) (t : Fin cfg0.N) (a : Fin 2) (b : Fin 2) :
    iblk m c 3 t (ix2 a b) = (V m c main_v47 : S2x2.Idx → EReal) (ix2 a b) := by
  obtain ⟨-, -, -, -, -, -, e0, e1, -⟩ := idx_facts t
  show (V m c main_v47 : S2x2.Idx → EReal) (((cfg0.win 3).blk t).view.emb (ix2 a b)) = _
  refine congrArg (V m c main_v47 : S2x2.Idx → EReal) (funext fun d => Fin.ext ?_)
  match d with
  | ⟨0, _⟩ => show win0_3.index t (0 : Fin 2) * 2 + 1 * a.val = a.val; rw [e0]; omega
  | ⟨1, _⟩ => show win0_3.index t (1 : Fin 2) * 2 + 1 * b.val = b.val; rw [e1]; omega

/-- Window 4's block at point t is the observation array's columns from 131072 t on. -/
theorem blk4_apply (c : Dev nD) (t : Fin cfg0.N) (k : Fin 2) (q : Fin 131072) :
    iblk m c 4 t (ix2 k q)
      = (V m c main_arg0 : S2x4194304.Idx → EReal) (ix2 k (⟨131072 * t.val + q.val, col_lt (t_lt t) q⟩ : Fin 4194304)) := by
  obtain ⟨-, -, -, -, -, -, -, -, e0, e1, -⟩ := idx_facts t
  show (V m c main_arg0 : S2x4194304.Idx → EReal) (((cfg0.win 4).blk t).view.emb (ix2 k q)) = _
  refine congrArg (V m c main_arg0 : S2x4194304.Idx → EReal) (funext fun d => Fin.ext ?_)
  match d with
  | ⟨0, _⟩ => show win0_4.index t (0 : Fin 2) * 2 + 1 * k.val = k.val; rw [e0]; omega
  | ⟨1, _⟩ => show win0_4.index t (1 : Fin 2) * 131072 + 1 * q.val = 131072 * t.val + q.val; rw [e1]; omega

/-- Window 5's block at point t is the state array's columns from 131072 t on. -/
theorem blk5_apply (c : Dev nD) (t : Fin cfg0.N) (a : Fin 4) (q : Fin 131072) :
    iblk m c 5 t (ix2 a q)
      = (V m c main_arg2 : S4x4194304.Idx → EReal) (ix2 a (⟨131072 * t.val + q.val, col_lt (t_lt t) q⟩ : Fin 4194304)) := by
  obtain ⟨-, -, -, -, -, -, -, -, -, -, e0, e1, -⟩ := idx_facts t
  show (V m c main_arg2 : S4x4194304.Idx → EReal) (((cfg0.win 5).blk t).view.emb (ix2 a q)) = _
  refine congrArg (V m c main_arg2 : S4x4194304.Idx → EReal) (funext fun d => Fin.ext ?_)
  match d with
  | ⟨0, _⟩ => show win0_5.index t (0 : Fin 2) * 4 + 1 * a.val = a.val; rw [e0]; omega
  | ⟨1, _⟩ => show win0_5.index t (1 : Fin 2) * 131072 + 1 * q.val = 131072 * t.val + q.val; rw [e1]; omega

/-- WHAT POINT t WRITES BACK to the state result array is block t of the arrays' folded state result. -/
theorem flushed6_eq (c : Dev nD) (t : Fin cfg0.N) :
    (dats m 0 c).flushed 6 t = ((cfg0.win 6).blk t).view.read (Elt Ideal)
      (Cert.Kalman.gOut (V m c main_v45) (V m c main_v33) (V m c main_arg0) (V m c main_arg2)) := by
  refine (Value.flushed6_A m c t).trans ?_
  rw [out6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)]
  obtain ⟨-, -, -, -, -, -, -, -, -, -, -, -, e0, e1, -⟩ := idx_facts t
  funext j
  show gBlock (iblk m c 0 t) (iblk m c 1 t) (iblk m c 4 t) (iblk m c 5 t) j
    = Cert.Kalman.gOut (V m c main_v45) (V m c main_v33) (V m c main_arg0) (V m c main_arg2) (((cfg0.win 6).blk t).view.emb j)
  refine gBlock_read (V m c main_v45) (V m c main_v33) (V m c main_arg0) (V m c main_arg2)
    (iblk m c 0 t) (iblk m c 1 t) (iblk m c 4 t) (iblk m c 5 t) t.val (t_lt t)
    (blk0_apply m c t) (blk1_apply m c t) (blk4_apply m c t) (blk5_apply m c t) j (((cfg0.win 6).blk t).view.emb j) ?_ ?_
  · show win0_6.index t (0 : Fin 2) * 4 + 1 * (j 0).val = (j 0).val; rw [e0]; omega
  · show win0_6.index t (1 : Fin 2) * 131072 + 1 * (j 1).val = 131072 * t.val + (j 1).val; rw [e1]; omega

/-- WHAT POINT t WRITES BACK to the observation result array is block t of the arrays' folded observation result. -/
theorem flushed7_eq (c : Dev nD) (t : Fin cfg0.N) :
    (dats m 0 c).flushed 7 t = ((cfg0.win 7).blk t).view.read (Elt Ideal)
      (Cert.Kalman.zOut (V m c main_v46) (V m c main_v47) (V m c main_arg0) (V m c main_arg2)) := by
  refine (Value.flushed7_A m c t).trans ?_
  rw [out7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)]
  obtain ⟨-, -, -, -, -, -, -, -, -, -, -, -, -, -, e0, e1⟩ := idx_facts t
  funext j
  show zBlock (iblk m c 2 t) (iblk m c 3 t) (iblk m c 4 t) (iblk m c 5 t) j
    = Cert.Kalman.zOut (V m c main_v46) (V m c main_v47) (V m c main_arg0) (V m c main_arg2) (((cfg0.win 7).blk t).view.emb j)
  refine zBlock_read (V m c main_v46) (V m c main_v47) (V m c main_arg0) (V m c main_arg2)
    (iblk m c 2 t) (iblk m c 3 t) (iblk m c 4 t) (iblk m c 5 t) t.val (t_lt t)
    (blk2_apply m c t) (blk3_apply m c t) (blk4_apply m c t) (blk5_apply m c t) j (((cfg0.win 7).blk t).view.emb j) ?_ ?_
  · show win0_7.index t (0 : Fin 2) * 2 + 1 * (j 0).val = (j 0).val; rw [e0]; omega
  · show win0_7.index t (1 : Fin 2) * 131072 + 1 * (j 1).val = 131072 * t.val + (j 1).val; rw [e1]; omega

/-! ## The blocks cover the arrays

Column b of either result array lies in the block of point b / 131072, and every point writes its block back. -/

/-- An index of the state result array is in point t's block iff each coordinate is in the block's range on its axis. -/
theorem mem_blk6 (t : Fin cfg0.N) (i : S4x4194304.Idx) :
    i ∈ ((cfg0.win 6).blk t).view.set ↔ ∀ a : Fin 2, win0_6.index t a * S4x131072.size a ≤ (i a).val
      ∧ (i a).val < win0_6.index t a * S4x131072.size a + S4x131072.size a := by
  show i ∈ ((View.whole main_v48_0).slice (win0_6.rect t)).set ↔ _
  rw [View.set_slice_whole, Rect.mem_set_unit]
  exact Iff.rfl

/-- An index of the observation result array is in point t's block iff each coordinate is in the block's range on its axis. -/
theorem mem_blk7 (t : Fin cfg0.N) (i : S2x4194304.Idx) :
    i ∈ ((cfg0.win 7).blk t).view.set ↔ ∀ a : Fin 2, win0_7.index t a * S2x131072.size a ≤ (i a).val
      ∧ (i a).val < win0_7.index t a * S2x131072.size a + S2x131072.size a := by
  show i ∈ ((View.whole main_v48_1).slice (win0_7.rect t)).set ↔ _
  rw [View.set_slice_whole, Rect.mem_set_unit]
  exact Iff.rfl

/-- The point whose blocks hold column b. -/
theorem point_of_col (b : Nat) (hb : b < 4194304) : ∃ t : Fin cfg0.N, t.val = b / 131072 :=
  ⟨⟨b / 131072, Nat.lt_of_lt_of_eq (by omega) N_0.symm⟩, rfl⟩

theorem cover6 (i : S4x4194304.Idx) :
    ∃ t : Fin cfg0.N, (cfg0.win 6).flush t = true ∧ i ∈ ((cfg0.win 6).blk t).view.set := by
  have h0 : (i 0).val < 4 := (i 0).isLt
  have h1 : (i 1).val < 4194304 := (i 1).isLt
  obtain ⟨t, ht⟩ := point_of_col (i 1).val h1
  obtain ⟨-, -, -, -, -, -, -, -, -, -, -, -, e0, e1, -⟩ := idx_facts t
  refine ⟨t, flush0_6 t, ?_⟩
  rw [mem_blk6]
  intro a
  match a with
  | ⟨0, _⟩ =>
    show win0_6.index t (0 : Fin 2) * 4 ≤ (i 0).val ∧ (i 0).val < win0_6.index t (0 : Fin 2) * 4 + 4
    rw [e0]; omega
  | ⟨1, _⟩ =>
    show win0_6.index t (1 : Fin 2) * 131072 ≤ (i 1).val ∧ (i 1).val < win0_6.index t (1 : Fin 2) * 131072 + 131072
    rw [e1, ht]; omega

theorem cover7 (i : S2x4194304.Idx) :
    ∃ t : Fin cfg0.N, (cfg0.win 7).flush t = true ∧ i ∈ ((cfg0.win 7).blk t).view.set := by
  have h0 : (i 0).val < 2 := (i 0).isLt
  have h1 : (i 1).val < 4194304 := (i 1).isLt
  obtain ⟨t, ht⟩ := point_of_col (i 1).val h1
  obtain ⟨-, -, -, -, -, -, -, -, -, -, -, -, -, -, e0, e1⟩ := idx_facts t
  refine ⟨t, flush0_7 t, ?_⟩
  rw [mem_blk7]
  intro a
  match a with
  | ⟨0, _⟩ =>
    show win0_7.index t (0 : Fin 2) * 2 ≤ (i 0).val ∧ (i 0).val < win0_7.index t (0 : Fin 2) * 2 + 2
    rw [e0]; omega
  | ⟨1, _⟩ =>
    show win0_7.index t (1 : Fin 2) * 131072 ≤ (i 1).val ∧ (i 1).val < win0_7.index t (1 : Fin 2) * 131072 + 131072
    rw [e1, ht]; omega

/-! ## The two result arrays after the run -/

/-- THE STATE RESULT ARRAY after the run is the folded state result of the arrays the region finds in its windows. -/
theorem final6 (m : (ℓ : Loc nD τ sig) → Buf (Elt Ideal) ℓ) (c : Dev nD) :
    (dats m 0 c).arrAt 6 cfg0.N
      = Cert.Kalman.gOut (V m c main_v45) (V m c main_v33) (V m c main_arg0) (V m c main_arg2) :=
  (dats m 0 c).arrAt_eq_of_cover 6
    (Cert.Kalman.gOut (V m c main_v45) (V m c main_v33) (V m c main_arg0) (V m c main_arg2))
    (fun t _ => flushed6_eq m c t) cover6

/-- THE OBSERVATION RESULT ARRAY after the run is the folded observation result of the arrays the region finds in its
    windows. -/
theorem final7 (m : (ℓ : Loc nD τ sig) → Buf (Elt Ideal) ℓ) (c : Dev nD) :
    (dats m 0 c).arrAt 7 cfg0.N
      = Cert.Kalman.zOut (V m c main_v46) (V m c main_v47) (V m c main_arg0) (V m c main_arg2) :=
  (dats m 0 c).arrAt_eq_of_cover 7
    (Cert.Kalman.zOut (V m c main_v46) (V m c main_v47) (V m c main_arg0) (V m c main_arg2))
    (fun t _ => flushed7_eq m c t) cover7

end Cert.KernelIdeal.Blocks

end
-- ==== Proof.KernelHost.lean ====
/-
  The host stage of the Kalman update: what the four small coefficient matrices hold when the batched region starts.

  The program first computes, from the observation noise N (2×2), the prior covariance H (4×4), the transition Φ (4×4)
  and the observation matrix Ψ (2×4):
    * the predicted covariance  P = Φ·H·Φᵀ,  the innovation covariance  S = Ψ·P·Ψᵀ + N,  its inverse by the 2×2
      adjugate formula (adj S) / det S,  the gain  K = P·Ψᵀ·S⁻¹  (4×2)  and the updated covariance  P − K·(Ψ·P);
    * then the folded coefficients the batched region multiplies by:
        Wg = (I − K·Ψ)·Φ  (4×4),   Cg = Ψ·Wg  (2×4),   Cz = Ψ·K  (2×2),   and K itself for Wz.
  Part one: the gain and the updated covariance are, operation for operation, the reference program's stages.
  Part two: Wg, Cg and Cz entry by entry, as sums over the contracted coordinate, in terms of K, Φ and Ψ.
-/
import proofs.«178990_j592705487346_2_alg».proof.Proof.Gen.KernelIdeal.Value
import proofs.«178990_j592705487346_2_alg».proof.Proof.Gen.ReferenceIdeal.Read
import proofs.«178990_j592705487346_2_alg».proof.Proof.Spec
import proofs.«178990_j592705487346_2_alg».proof.Proof.Fold
import Idealize.ShloMosaic.Lib.StableHlo.Run
import Idealize.ShloMosaic.Lib.StackMember
import Idealize.ShloMosaic.Lib.KernelVsHost
import Idealize.ShloMosaic.Lib.ValueIdx
import Idealize.ShloMosaic.Lib.IdealHost

noncomputable section

open scoped BigOperators

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

-- Throughout, the four small arguments are read as the memory holds them: N = main_arg1 (2×2), H = main_arg3 (4×4),
-- Φ = main_arg4 (4×4), Ψ = main_arg5 (2×4).

/-! ## Part one: the gain and the updated covariance are the reference's stages

Both programs compute P = Φ·H·Φᵀ, S = Ψ·P·Ψᵀ + N, the adjugate of S over its determinant, and K = (P·Ψᵀ)·S⁻¹ by the same
operations on the same operands; the only difference is the precision key of each matrix product, which the exact
product over the extended reals does not read. -/

/-- The gain K = P·Ψᵀ·S⁻¹ the region finds in its second window is the reference's gain stage. -/
theorem V_gain : (V m c main_v33 : S4x2.Idx → EReal) = Cert.ReferenceIdeal.Read.val_main_v34 (F := Ideal) (m ((c.tc : Thread nD τ).loc main_arg1)) (m ((c.tc : Thread nD τ).loc main_arg3))
      (m ((c.tc : Thread nD τ).loc main_arg4)) (m ((c.tc : Thread nD τ).loc main_arg5)) := by
  dsimp only [Gen.V, Gen.hostOps0]
  after_results_simp
  rfl

/-- The updated covariance P − K·(Ψ·P) is the reference's covariance stage. -/
theorem V_covUpd : (V m c main_v36 : S4x4.Idx → EReal) = Cert.ReferenceIdeal.Read.val_main_v41 (F := Ideal) (m ((c.tc : Thread nD τ).loc main_arg1)) (m ((c.tc : Thread nD τ).loc main_arg3))
      (m ((c.tc : Thread nD τ).loc main_arg4)) (m ((c.tc : Thread nD τ).loc main_arg5)) := by
  dsimp only [Gen.V, Gen.hostOps0]
  after_results_simp
  rfl

/-! ## Part two: the folded coefficients entry by entry -/

/-- The 4×4 identity, built as "row number = column number" converted to a float: entry (a, l) is 1 where a = l, else 0. -/
theorem eye_apply (a l : Fin 4) :
    (uitofp (F := Ideal) .f32 (cmpi .eq (addi (iotaInDim S4x4 32 0) (broadcastInDim S4x4 ![] bcast_S_S4x4 (constantI S_ 32 0#32))) (iotaInDim S4x4 32 1)) : FVec Ideal S4x4 .f32) (ix2 a l)
      = if a = l then (1 : EReal) else 0 := by
  show (((IntOp.cmpi .eq (IntOp.addi (BitVec.ofNat 32 (a : ℕ)) (broadcastInDim S4x4 ![] bcast_S_S4x4 (constantI S_ 32 0#32) (ix2 a l))) (BitVec.ofNat 32 (l : ℕ))).toNat : ℝ) : EReal) = _
  rw [broadcastInDim_scalar_apply]
  fin_cases a <;> fin_cases l <;> simp [IntOp.cmpi, IntOp.addi, constantI]

/-- The first coefficient matrix as the host operations compose it: (I − K·Ψ)·Φ, K being the gain buffer. -/
theorem V_Wg_eq : @Eq (FVec Ideal S4x4 .f32) (V m c main_v45)
    (Host.dotGeneral (F := Ideal) (φ₁ := .f32) (φ₂ := .f32) dot_S4x4_S4x4_S4x4_1_0_0_1_n_n (some .fp32)
      (subf (F := Ideal) (φ := .f32)
        (uitofp (F := Ideal) .f32 (cmpi .eq (addi (iotaInDim S4x4 32 0) (broadcastInDim S4x4 ![] bcast_S_S4x4 (constantI S_ 32 0#32))) (iotaInDim S4x4 32 1)))
        (Host.dotGeneral (F := Ideal) (φ₁ := .f32) (φ₂ := .f32) dot_S4x2_S2x4_S4x4_1_0_0_1_n_n (some .fp32) (V m c main_v33) (m ((c.tc : Thread nD τ).loc main_arg5))))
      (m ((c.tc : Thread nD τ).loc main_arg4))) := by
  dsimp only [Gen.V, Gen.hostOps0]
  after_results_simp

/-- The third coefficient matrix as the host operations compose it: Ψ·Wg. -/
theorem V_Cg_eq : @Eq (FVec Ideal S2x4 .f32) (V m c main_v46)
    (Host.dotGeneral (F := Ideal) (φ₁ := .f32) (φ₂ := .f32) dot_S2x4_S4x4_S2x4_1_0_0_1_n_n (some .fp32) (m ((c.tc : Thread nD τ).loc main_arg5)) (V m c main_v45)) := by
  dsimp only [Gen.V, Gen.hostOps0]
  after_results_simp

/-- The fourth coefficient matrix as the host operations compose it: Ψ·K. -/
theorem V_Cz_eq : @Eq (FVec Ideal S2x2 .f32) (V m c main_v47)
    (Host.dotGeneral (F := Ideal) (φ₁ := .f32) (φ₂ := .f32) dot_S2x4_S4x2_S2x2_1_0_0_1_n_n (some .fp32) (m ((c.tc : Thread nD τ).loc main_arg5)) (V m c main_v33)) := by
  dsimp only [Gen.V, Gen.hostOps0]
  after_results_simp

/-- Entry (a, c′) of Wg: the sum over l of (δ(a, l) − Σₖ K(a, k)·Ψ(k, l))·Φ(l, c′). -/
theorem V_Wg_apply (a c' : Fin 4) :
    (V m c main_v45 : S4x4.Idx → EReal) (ix2 (n0 := 4) (n1 := 4) a c')
      = Cert.Kalman.foldedW (V m c main_v33) (m ((c.tc : Thread nD τ).loc main_arg4)) (m ((c.tc : Thread nD τ).loc main_arg5)) a c' := by
  rw [V_Wg_eq]
  unfold Cert.Kalman.foldedW
  refine (StackMember.dotGeneral_plain_apply (some .fp32) _ _ a c').trans ?_
  refine Finset.sum_congr rfl fun l _ => ?_
  congr 1
  rw [subf_apply, eye_apply]
  congr 1
  exact StackMember.dotGeneral_plain_apply (some .fp32) _ _ a l

/-- Entry (r, c′) of Cg: row r of Ψ against column c′ of Wg. -/
theorem V_Cg_apply (r : Fin 2) (c' : Fin 4) :
    (V m c main_v46 : S2x4.Idx → EReal) (ix2 (n0 := 2) (n1 := 4) r c')
      = Cert.Kalman.obsW (m ((c.tc : Thread nD τ).loc main_arg5)) (V m c main_v45) r c' := by
  rw [V_Cg_eq]
  exact StackMember.dotGeneral_plain_apply (some .fp32) _ _ r c'

/-- Entry (r, k) of Cz: row r of Ψ against column k of K. -/
theorem V_Cz_apply (r k : Fin 2) :
    (V m c main_v47 : S2x2.Idx → EReal) (ix2 (n0 := 2) (n1 := 2) r k)
      = Cert.Kalman.obsK (m ((c.tc : Thread nD τ).loc main_arg5)) (V m c main_v33) r k := by
  rw [V_Cz_eq]
  exact StackMember.dotGeneral_plain_apply (some .fp32) _ _ r k

end Cert.KernelIdeal.HostSide

end
-- ==== Proof.Bridge.lean ====
/-
  The two programs meet: under the precondition the kernel's three results are the reference's three functions of the
  kernel's own arguments.
-/
import proofs.«178990_j592705487346_2_alg».proof.Defs
import proofs.«178990_j592705487346_2_alg».proof.Proof.Gen.KernelIdeal.Value
import proofs.«178990_j592705487346_2_alg».proof.Proof.Gen.ReferenceIdeal.Read
import proofs.«178990_j592705487346_2_alg».proof.Proof.Spec
import proofs.«178990_j592705487346_2_alg».proof.Proof.LibRealClosed
import proofs.«178990_j592705487346_2_alg».proof.Proof.PreDecode
import proofs.«178990_j592705487346_2_alg».proof.Proof.Fold
import proofs.«178990_j592705487346_2_alg».proof.Proof.RefSide
import proofs.«178990_j592705487346_2_alg».proof.Proof.KernelBlocks
import proofs.«178990_j592705487346_2_alg».proof.Proof.KernelHost

noncomputable section

open scoped BigOperators

/-! ## The two programs' results as one function of the arguments -/

namespace Cert.Bridge

open Idealize.ShloMosaic Idealize.ShloMosaic.TcCoe Idealize.ShloMosaic.ValueIdx Idealize.SL.Sem Cert.LibRealClosed

/-- Over plain arrays: if the precondition holds of the six arguments, the gain array is the reference's, the three
    coefficient matrices are (I − K·Ψ)·Φ, Ψ·that and Ψ·K, and two arrays are the folded forms over them, then those
    two arrays are the reference's state and observation results. -/
theorem folded_is_reference
    (x0 : FVec Ideal Cert.Kalman.A2B .f32) (x1 : FVec Ideal Cert.Kalman.M22 .f32) (x2 : FVec Ideal Cert.Kalman.A4B .f32)
    (x3 x4 : FVec Ideal Cert.Kalman.M44 .f32) (x5 : FVec Ideal Cert.Kalman.M24 .f32)
    (Wg : FVec Ideal Cert.Kalman.M44 .f32) (K : FVec Ideal Cert.Kalman.M42 .f32) (Cg : FVec Ideal Cert.Kalman.M24 .f32)
    (Cz : FVec Ideal Cert.Kalman.M22 .f32) (o6 : FVec Ideal Cert.Kalman.A4B .f32) (o7 : FVec Ideal Cert.Kalman.A2B .f32)
    (hpre : Cert.Pre_finite_inputs.fn (F := Ideal) x0 x1 x2 x3 x4 x5 = fun _ => 1#1)
    (e6 : o6 = Cert.Kalman.gOut Wg K x0 x2) (e7 : o7 = Cert.Kalman.zOut Cg Cz x0 x2)
    (eK : K = Cert.ReferenceIdeal.Read.val_main_v34 (F := Ideal) x1 x3 x4 x5)
    (hWg : ∀ a c' : Fin 4, Wg (ix2 (n0 := 4) (n1 := 4) a c') = Cert.Kalman.foldedW K x4 x5 a c')
    (hCg : ∀ (r : Fin 2) (c' : Fin 4), Cg (ix2 (n0 := 2) (n1 := 4) r c')
        = ∑ a : Fin 4, x5 (ix2 (n0 := 2) (n1 := 4) r a) * Wg (ix2 (n0 := 4) (n1 := 4) a c'))
    (hCz : ∀ r k : Fin 2, Cz (ix2 (n0 := 2) (n1 := 2) r k)
        = ∑ a : Fin 4, x5 (ix2 (n0 := 2) (n1 := 4) r a) * K (ix2 (n0 := 4) (n1 := 2) a k)) :
    o6 = Cert.ReferenceIdeal.Read.val_main_v38 (F := Ideal) x0 x1 x2 x3 x4 x5
      ∧ o7 = Cert.ReferenceIdeal.Read.val_main_v42 (F := Ideal) x0 x1 x2 x3 x4 x5 := by
  obtain ⟨h0, h1, h2, h3, h4, h5, hdet⟩ := Cert.PreDecode.decode x0 x1 x2 x3 x4 x5 hpre
  have hK : AllReal K := by rw [eK]; exact Cert.RefSide.real_gain x1 x3 x4 x5 h1 h3 h4 h5 hdet
  constructor
  · rw [e6, Cert.RefSide.state_eq x0 x1 x2 x3 x4 x5, ← eK]
    exact Cert.Kalman.gOut_eq_gUpd Wg K x4 x5 x0 x2 hK h4 h5 h0 h2 hWg
  · rw [e7, Cert.RefSide.obs_eq x0 x1 x2 x3 x4 x5, ← eK]
    exact Cert.Kalman.zOut_eq_zUpd Wg K x4 x5 x0 x2 Cg Cz hK h4 h5 h0 h2 hWg hCg hCz

open Cert.KernelIdeal Cert.KernelIdeal.Gen

variable (m : (ℓ : Loc nD τ sig) → Buf (Elt Ideal) ℓ) (ρ : Dev nD → PrngReg)

/-- The covariance result is written by the host before the region and not touched by it. -/
theorem kept_covUpd (r : PUnit × MemSt nD τ sig (Elt Ideal)) (h : Pipeline.FramePost cfgs (dats m) 0 (V m) r) (c : Dev nD) :
    r.2.mem ((c : Thread nD τ).loc main_v36) = V m c main_v36 :=
  (h c).2 main_v36 (Pipeline.mem_restRefs_of main_v36 (by decide) (by decide))

/-- Under the precondition, on every core, the region's two output arrays are the reference's state and observation
    results of the kernel's own arguments. -/
theorem outputs (hpre : Cert.Pre_KernelIdeal m) (c : Dev nD) :
    (dats m 0 c).arrAt 6 cfg0.N
        = Cert.ReferenceIdeal.Read.val_main_v38 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)) (m ((c.tc : Thread nD τ).loc main_arg5))
      ∧ (dats m 0 c).arrAt 7 cfg0.N
        = Cert.ReferenceIdeal.Read.val_main_v42 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)) (m ((c.tc : Thread nD τ).loc main_arg5)) :=
  folded_is_reference (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (V m c main_v45) (V m c main_v33) (V m c main_v46) (V m c main_v47) ((dats m 0 c).arrAt 6 cfg0.N) ((dats m 0 c).arrAt 7 cfg0.N)
    (hpre c)
    ((Cert.KernelIdeal.Blocks.final6 m c).trans (by rw [V_main_arg0, V_main_arg2]))
    ((Cert.KernelIdeal.Blocks.final7 m c).trans (by rw [V_main_arg0, V_main_arg2]))
    (Cert.KernelIdeal.HostSide.V_gain m c)
    (Cert.KernelIdeal.HostSide.V_Wg_apply m c)
    (Cert.KernelIdeal.HostSide.V_Cg_apply m c)
    (Cert.KernelIdeal.HostSide.V_Cz_apply m c)
/-- The kernel's run: it terminates with the three results at the reference's three functions of the kernel's own
    arguments, and the arguments unchanged. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v48_0)
          = Cert.ReferenceIdeal.Read.val_main_v38 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v36)
          = Cert.ReferenceIdeal.Read.val_main_v41 (F := Ideal) (m ((c.tc : Thread nD τ).loc main_arg1))
              (m ((c.tc : Thread nD τ).loc main_arg3)) (m ((c.tc : Thread nD τ).loc main_arg4)) (m ((c.tc : Thread nD τ).loc main_arg5))
      ∧ r.2.mem ((c.tc : Thread nD τ).loc main_v48_1)
          = Cert.ReferenceIdeal.Read.val_main_v42 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(Cert.KernelIdeal.Value.post6 m r h c).trans (outputs m hpre c).1,
      (kept_covUpd m r h c).trans (Cert.KernelIdeal.HostSide.V_covUpd m c),
      (Cert.KernelIdeal.Value.post7 m r h c).trans (outputs m hpre c).2,
      Cert.KernelIdeal.Value.kept_main_arg0 m r h c, Cert.KernelIdeal.Value.kept_main_arg1 m r h c,
      Cert.KernelIdeal.Value.kept_main_arg2 m r h c, Cert.KernelIdeal.Value.kept_main_arg3 m r h c,
      Cert.KernelIdeal.Value.kept_main_arg4 m r h c, Cert.KernelIdeal.Value.kept_main_arg5 m r h c⟩)
    (run_main m ρ)

end Cert.Bridge

end
-- ==== Proof.lean ====
/- The proof of `Cert.Claim`: a batched Kalman update (a kernel streaming 4194304 columns behind host-side matrix algebra)
   against its reference, equal as extended reals wherever the arguments are finite and det S ≠ 0.

   Both programs compute the gain K = (Φ·H·Φᵀ·Ψᵀ)·(adj S / det S), S = Ψ·(Φ·H·Φᵀ)·Ψᵀ + N, and the covariance result
   Φ·H·Φᵀ − K·(Ψ·Φ·H·Φᵀ), by the same operations in the same order. The reference then computes, column by column,
   Φ·g + K·(z − Ψ·Φ·g) and Ψ applied to it; the kernel folds these into ((I − K·Ψ)·Φ)·g + K·z and
   (Ψ·(I − K·Ψ)·Φ)·g + (Ψ·K)·z, streamed over 32 blocks of columns. The two forms agree by distributing K (and Ψ) over
   sums — laws of the reals that fail at the infinities, which is where the precondition is used: finite arguments and
   a nonzero determinant make K, and with it every number in sight, real. -/
import proofs.«178990_j592705487346_2_alg».proof.Defs
import proofs.«178990_j592705487346_2_alg».proof.Proof.Gen.Kernel
import proofs.«178990_j592705487346_2_alg».proof.Proof.Gen.Kernel.Skeleton
import proofs.«178990_j592705487346_2_alg».proof.Proof.Gen.Kernel.Launch
import proofs.«178990_j592705487346_2_alg».proof.Proof.Gen.Kernel.Points
import proofs.«178990_j592705487346_2_alg».proof.Proof.Gen.Kernel.Frame
import proofs.«178990_j592705487346_2_alg».proof.Proof.Gen.KernelIdeal
import proofs.«178990_j592705487346_2_alg».proof.Proof.Gen.KernelIdeal.Skeleton
import proofs.«178990_j592705487346_2_alg».proof.Proof.Gen.KernelIdeal.Launch
import proofs.«178990_j592705487346_2_alg».proof.Proof.Gen.KernelIdeal.Points
import proofs.«178990_j592705487346_2_alg».proof.Proof.Gen.KernelIdeal.Frame
import proofs.«178990_j592705487346_2_alg».proof.Proof.Gen.ReferenceIdeal
import proofs.«178990_j592705487346_2_alg».proof.Proof.Gen.Pre_finite_inputs
import proofs.«178990_j592705487346_2_alg».proof.Proof.Gen.KernelIdeal.Value
import proofs.«178990_j592705487346_2_alg».proof.Proof.Gen.ReferenceIdeal.Run
import proofs.«178990_j592705487346_2_alg».proof.Proof.Gen.ReferenceIdeal.Read
import proofs.«178990_j592705487346_2_alg».proof.Proof.Bridge
import Idealize.ShloMosaic.Adequacy
import Idealize.ShloMosaic.Init

noncomputable section

namespace Cert.Proof

open Idealize.ShloMosaic Idealize.SL.Sem

/-- The word-level kernel and its idealization run to the end and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- The reference is host operations only: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Both programs end with the reference's three functions of the (agreeing) arguments. -/
theorem algebraic : Cert.algebraic_KernelIdeal_ReferenceIdeal := by
  intro m ρ m' ρ' hpre hagree
  refine ⟨_, _, _, Cert.Bridge.run m ρ hpre, ?_⟩
  refine (θ_run Cert.ReferenceIdeal.defs _ _).mono (fun _ h c => ?_) (Cert.ReferenceIdeal.Value.run (F := Ideal) m' ρ')
  obtain ⟨e0, e1, e2, e3, e4, e5⟩ := hagree c
  obtain ⟨r0, r1, r2, rest⟩ := h c
  refine ⟨?_, ?_, ?_, rest⟩
  · rw [r0, Cert.ReferenceIdeal.Read.val_main_v38_eq, e0, e1, e2, e3, e4, e5]
  · rw [r1, Cert.ReferenceIdeal.Read.val_main_v41_eq, e1, e3, e4, e5]
  · rw [r2, Cert.ReferenceIdeal.Read.val_main_v42_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
